-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S11008x4096 : Shape := ⟨2, ![11008, 4096]⟩
abbrev S11008x32 : Shape := ⟨2, ![11008, 32]⟩
abbrev S4096x11008 : Shape := ⟨2, ![4096, 11008]⟩
abbrev S4096x86 : Shape := ⟨2, ![4096, 86]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S4096x86 : S_.BroadcastsInDim S4096x86 (![] : Fin 0 → Fin S4096x86.rank)
  reducesTo_S4096x86_S_d0_1 : S4096x86.ReducesTo [0, 1] S_

variable [Facts]

def fn_part1 {F : FTy → Type} [FloatOps F] (main_v13 : IVec S_ 1) (main_v16 : IVec S4096x86 1) : IVec S_ 1 :=
  let main_c_5 : IVec S_ 1 := constantI S_ 1 1#1
  let main_v17 : IVec S_ 1 := (fun x v => Host.reduce IntOp.andi x v reducesTo_S4096x86_S_d0_1 h_S_) main_v16 main_c_5
  let main_v18 : IVec S_ 1 := andi main_v13 main_v17
  main_v18

def fn {F : FTy → Type} [FloatOps F] (main_arg0 : FVec F S64x4096 .f32) (main_arg1 : IVec S11008x4096 32) (main_arg2 : FVec F S11008x32 .f32) (main_arg3 : IVec S11008x32 32) (main_arg4 : IVec S11008x4096 32) (main_arg5 : FVec F S11008x32 .f32) (main_arg6 : IVec S11008x32 32) (main_arg7 : IVec S4096x11008 32) (main_arg8 : FVec F S4096x86 .f32) (main_arg9 : IVec S4096x86 32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg5
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S4096x86 .f32 := Host.absf main_arg8
  let main_cst_4 : FVec F S_ .f32 := constant S_ .f32 0x7F800000#32
  let main_v15 : FVec F S4096x86 .f32 := broadcastInDim S4096x86 ![] bcast_S_S4096x86 main_cst_4
  let main_v16 : IVec S4096x86 1 := cmpf .olt main_v14 main_v15
  fn_part1 (F := F) main_v13 main_v16
-- ==== Kernel.lean ====
abbrev S64x4096 : Shape := ⟨2, ![64, 4096]⟩
abbrev S11008x4096 : Shape := ⟨2, ![11008, 4096]⟩
abbrev S11008x32 : Shape := ⟨2, ![11008, 32]⟩
abbrev S4096x11008 : Shape := ⟨2, ![4096, 11008]⟩
abbrev S4096x86 : Shape := ⟨2, ![4096, 86]⟩
abbrev S64x11008 : Shape := ⟨2, ![64, 11008]⟩
abbrev S256x4096 : Shape := ⟨2, ![256, 4096]⟩
abbrev S256x32 : Shape := ⟨2, ![256, 32]⟩
abbrev S64x256 : Shape := ⟨2, ![64, 256]⟩
abbrev S256x32x128 : Shape := ⟨3, ![256, 32, 128]⟩
abbrev S256x32x1 : Shape := ⟨3, ![256, 32, 1]⟩
abbrev S128x11008 : Shape := ⟨2, ![128, 11008]⟩
abbrev S128x86 : Shape := ⟨2, ![128, 86]⟩
abbrev S64x128 : Shape := ⟨2, ![64, 128]⟩
abbrev S128x86x128 : Shape := ⟨3, ![128, 86, 128]⟩
abbrev S128x86x1 : Shape := ⟨3, ![128, 86, 1]⟩

abbrev nBuf : Space → Nat
  | .hbm => 13
  | .vmem => 24
  | .smem => 0
  | _ => 0

abbrev bufTy : (tb : Table) → Fin (tcTables nBuf tb) → BufTy
  | .hbm, ⟨0, _⟩ => ⟨S64x4096, .f32⟩
  | .hbm, ⟨1, _⟩ => ⟨S11008x4096, .i32⟩
  | .hbm, ⟨2, _⟩ => ⟨S11008x32, .f32⟩
  | .hbm, ⟨3, _⟩ => ⟨S11008x32, .i32⟩
  | .hbm, ⟨4, _⟩ => ⟨S11008x4096, .i32⟩
  | .hbm, ⟨5, _⟩ => ⟨S11008x32, .f32⟩
  | .hbm, ⟨6, _⟩ => ⟨S11008x32, .i32⟩
  | .hbm, ⟨7, _⟩ => ⟨S4096x11008, .i32⟩
  | .hbm, ⟨8, _⟩ => ⟨S4096x86, .f32⟩
  | .hbm, ⟨9, _⟩ => ⟨S4096x86, .i32⟩
  | .hbm, ⟨10, _⟩ => ⟨S64x4096, .bf16⟩
  | .hbm, ⟨11, _⟩ => ⟨S64x11008, .f32⟩
  | .hbm, ⟨12, _⟩ => ⟨S64x4096, .f32⟩
  | .local _ .vmem, ⟨0, _⟩ => ⟨S64x4096, .bf16⟩
  | .local _ .vmem, ⟨1, _⟩ => ⟨S256x4096, .i32⟩
  | .local _ .vmem, ⟨2, _⟩ => ⟨S256x4096, .i32⟩
  | .local _ .vmem, ⟨3, _⟩ => ⟨S256x32, .f32⟩
  | .local _ .vmem, ⟨4, _⟩ => ⟨S256x32, .f32⟩
  | .local _ .vmem, ⟨5, _⟩ => ⟨S256x32, .i32⟩
  | .local _ .vmem, ⟨6, _⟩ => ⟨S256x32, .i32⟩
  | .local _ .vmem, ⟨7, _⟩ => ⟨S256x4096, .i32⟩
  | .local _ .vmem, ⟨8, _⟩ => ⟨S256x4096, .i32⟩
  | .local _ .vmem, ⟨9, _⟩ => ⟨S256x32, .f32⟩
  | .local _ .vmem, ⟨10, _⟩ => ⟨S256x32, .f32⟩
  | .local _ .vmem, ⟨11, _⟩ => ⟨S256x32, .i32⟩
  | .local _ .vmem, ⟨12, _⟩ => ⟨S256x32, .i32⟩
  | .local _ .vmem, ⟨13, _⟩ => ⟨S64x256, .f32⟩
  | .local _ .vmem, ⟨14, _⟩ => ⟨S64x256, .f32⟩
  | .local _ .vmem, ⟨15, _⟩ => ⟨S128x11008, .i32⟩
  | .local _ .vmem, ⟨16, _⟩ => ⟨S128x11008, .i32⟩
  | .local _ .vmem, ⟨17, _⟩ => ⟨S128x86, .f32⟩
  | .local _ .vmem, ⟨18, _⟩ => ⟨S128x86, .f32⟩
  | .local _ .vmem, ⟨19, _⟩ => ⟨S128x86, .i32⟩
  | .local _ .vmem, ⟨20, _⟩ => ⟨S128x86, .i32⟩
  | .local _ .vmem, ⟨21, _⟩ => ⟨S64x11008, .f32⟩
  | .local _ .vmem, ⟨22, _⟩ => ⟨S64x128, .f32⟩
  | .local _ .vmem, ⟨23, _⟩ => ⟨S64x128, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x32 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S128x11008 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x86 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x86 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x11008 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S64x256_S64x256_0_0 : ∀ a, (![0, 0] : Fin 2 → Nat) a + S64x256.size a ≤ S64x256.size a
  h_S64x256 : 0 < S64x256.numel
  inb_S128x11008_S128x11008_0_0 : ∀ a, (![0, 0] : Fin 2 → Nat) a + S128x11008.size a ≤ S128x11008.size a
  h_S128x11008 : 0 < S128x11008.numel
  shapeCasts_S128x11008_S128x86x128 : S128x11008.ShapeCasts S128x86x128
  inb_S128x86_S128x86_0_0 : ∀ a, (![0, 0] : Fin 2 → Nat) a + S128x86.size a ≤ S128x86.size a
  h_S128x86 : 0 < S128x86.numel
  shapeCasts_S128x86_S128x86x1 : S128x86.ShapeCasts S128x86x1
  broadcasts_S128x86x1_S128x86x128 : S128x86x1.Broadcasts S128x86x128
  shapeCasts_S128x86x128_S128x11008 : S128x86x128.ShapeCasts S128x11008
  inb_S64x11008_S64x11008_0_0 : ∀ a, (![0, 0] : Fin 2 → Nat) a + S64x11008.size a ≤ S64x11008.size a
  h_S64x11008 : 0 < S64x11008.numel
  shapeCasts_S64x11008_S64x11008 : S64x11008.ShapeCasts S64x11008
  inb_S64x128_S64x128_0_0 : ∀ a, (![0, 0] : Fin 2 → Nat) a + S64x128.size a ≤ S64x128.size a
  h_S64x128 : 0 < S64x128.numel
  dot_S64x4096_S256x4096_S64x256_1_1_0_0_n_n_wf : DotDims.WF S64x4096 S256x4096 S64x256 [1] [1] [0] [0] [] []
  dot_S64x11008_S128x11008_S64x128_1_1_0_0_n_n_wf : DotDims.WF S64x11008 S128x11008 S64x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .bf16 = 32 ∨ (Rect.block (s := S64x4096) S64x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S11008x32.size a
  hwx0_3 : ∀ i : grid0.Coords, EltTy.bits .i32 = 32 ∨ (Rect.block (s := S11008x32) S256x32.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S11008x4096.size a
  hwx0_4 : ∀ i : grid0.Coords, EltTy.bits .i32 = 32 ∨ (Rect.block (s := S11008x4096) S256x4096.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S11008x32.size a
  hwx0_5 : ∀ i : grid0.Coords, EltTy.bits .f32 = 32 ∨ (Rect.block (s := S11008x32) S256x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S11008x32.size a
  hwx0_6 : ∀ i : grid0.Coords, EltTy.bits .i32 = 32 ∨ (Rect.block (s := S11008x32) S256x32.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x11008.size a
  hwx0_7 : ∀ i : grid0.Coords, EltTy.bits .f32 = 32 ∨ (Rect.block (s := S64x11008) S64x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x11008.size a ≤ S4096x11008.size a
  hwx1_0 : ∀ i : grid1.Coords, EltTy.bits .i32 = 32 ∨ (Rect.block (s := S4096x11008) S128x11008.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x86.size a ≤ S4096x86.size a
  hwx1_1 : ∀ i : grid1.Coords, EltTy.bits .f32 = 32 ∨ (Rect.block (s := S4096x86) S128x86.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x86.size a ≤ S4096x86.size a
  hwx1_2 : ∀ i : grid1.Coords, EltTy.bits .i32 = 32 ∨ (Rect.block (s := S4096x86) S128x86.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x11008.size a ≤ S64x11008.size a
  hwx1_3 : ∀ i : grid1.Coords, EltTy.bits .f32 = 32 ∨ (Rect.block (s := S64x11008) S64x11008.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x4096.size a
  hwx1_4 : ∀ i : grid1.Coords, EltTy.bits .f32 = 32 ∨ (Rect.block (s := S64x4096) S64x128.size (cc1_transform_4 i) (hinb1_4 i)).WholeWords (EltTy.packing .f32)

variable [Facts₀]

def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf
def dot_S64x11008_S128x11008_S64x128_1_1_0_0_n_n : DotDims S64x11008 S128x11008 S64x128 where
  lhsContracting := [1]
  rhsContracting := [1]
  lhsNonContracting := [0]
  rhsNonContracting := [0]
  lhsBatch := []
  rhsBatch := []
  wf := dot_S64x11008_S128x11008_S64x128_1_1_0_0_n_n_wf

abbrev win0_0 : Pipeline.Window sig grid0 :=
  Pipeline.Window.ofSpec (Memref.whole main_v0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S64x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg7) S128x11008.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x86.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x86.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S64x11008.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S64x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x4096 : Shape := ⟨2, ![64, 4096]⟩
abbrev S11008x4096 : Shape := ⟨2, ![11008, 4096]⟩
abbrev S11008x32 : Shape := ⟨2, ![11008, 32]⟩
abbrev S4096x11008 : Shape := ⟨2, ![4096, 11008]⟩
abbrev S4096x86 : Shape := ⟨2, ![4096, 86]⟩
abbrev S11008x32x128 : Shape := ⟨3, ![11008, 32, 128]⟩
abbrev S11008x32x1 : Shape := ⟨3, ![11008, 32, 1]⟩
abbrev S4096x86x128 : Shape := ⟨3, ![4096, 86, 128]⟩
abbrev S4096x86x1 : Shape := ⟨3, ![4096, 86, 1]⟩
abbrev S64x11008 : Shape := ⟨2, ![64, 11008]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S11008x4096, .i32⟩
  | .hbm, ⟨2, _⟩ => ⟨S11008x32, .f32⟩
  | .hbm, ⟨3, _⟩ => ⟨S11008x32, .i32⟩
  | .hbm, ⟨4, _⟩ => ⟨S11008x4096, .i32⟩
  | .hbm, ⟨5, _⟩ => ⟨S11008x32, .f32⟩
  | .hbm, ⟨6, _⟩ => ⟨S11008x32, .i32⟩
  | .hbm, ⟨7, _⟩ => ⟨S4096x11008, .i32⟩
  | .hbm, ⟨8, _⟩ => ⟨S4096x86, .f32⟩
  | .hbm, ⟨9, _⟩ => ⟨S4096x86, .i32⟩
  | .hbm, ⟨10, _⟩ => ⟨S11008x32x128, .i32⟩
  | .hbm, ⟨11, _⟩ => ⟨S11008x32x128, .f32⟩
  | .hbm, ⟨12, _⟩ => ⟨S11008x32x1, .i32⟩
  | .hbm, ⟨13, _⟩ => ⟨S11008x32x1, .f32⟩
  | .hbm, ⟨14, _⟩ => ⟨S11008x32x128, .f32⟩
  | .hbm, ⟨15, _⟩ => ⟨S11008x32x128, .f32⟩
  | .hbm, ⟨16, _⟩ => ⟨S11008x32x1, .f32⟩
  | .hbm, ⟨17, _⟩ => ⟨S11008x32x128, .f32⟩
  | .hbm, ⟨18, _⟩ => ⟨S11008x32x128, .f32⟩
  | .hbm, ⟨19, _⟩ => ⟨S11008x4096, .f32⟩
  | .hbm, ⟨20, _⟩ => ⟨S11008x32x128, .i32⟩
  | .hbm, ⟨21, _⟩ => ⟨S11008x32x128, .f32⟩
  | .hbm, ⟨22, _⟩ => ⟨S11008x32x1, .i32⟩
  | .hbm, ⟨23, _⟩ => ⟨S11008x32x1, .f32⟩
  | .hbm, ⟨24, _⟩ => ⟨S11008x32x128, .f32⟩
  | .hbm, ⟨25, _⟩ => ⟨S11008x32x128, .f32⟩
  | .hbm, ⟨26, _⟩ => ⟨S11008x32x1, .f32⟩
  | .hbm, ⟨27, _⟩ => ⟨S11008x32x128, .f32⟩
  | .hbm, ⟨28, _⟩ => ⟨S11008x32x128, .f32⟩
  | .hbm, ⟨29, _⟩ => ⟨S11008x4096, .f32⟩
  | .hbm, ⟨30, _⟩ => ⟨S4096x86x128, .i32⟩
  | .hbm, ⟨31, _⟩ => ⟨S4096x86x128, .f32⟩
  | .hbm, ⟨32, _⟩ => ⟨S4096x86x1, .i32⟩
  | .hbm, ⟨33, _⟩ => ⟨S4096x86x1, .f32⟩
  | .hbm, ⟨34, _⟩ => ⟨S4096x86x128, .f32⟩
  | .hbm, ⟨35, _⟩ => ⟨S4096x86x128, .f32⟩
  | .hbm, ⟨36, _⟩ => ⟨S4096x86x1, .f32⟩
  | .hbm, ⟨37, _⟩ => ⟨S4096x86x128, .f32⟩
  | .hbm, ⟨38, _⟩ => ⟨S4096x86x128, .f32⟩
  | .hbm, ⟨39, _⟩ => ⟨S4096x11008, .f32⟩
  | .hbm, ⟨40, _⟩ => ⟨S4096x11008, .f32⟩
  | .hbm, ⟨41, _⟩ => ⟨S64x11008, .f32⟩
  | .hbm, ⟨42, _⟩ => ⟨S4096x11008, .f32⟩
  | .hbm, ⟨43, _⟩ => ⟨S64x11008, .f32⟩
  | .hbm, ⟨44, _⟩ => ⟨S64x11008, .f32⟩
  | .hbm, ⟨45, _⟩ => ⟨S64x11008, .f32⟩
  | .hbm, ⟨46, _⟩ => ⟨S_, .f32⟩
  | .hbm, ⟨47, _⟩ => ⟨S64x11008, .f32⟩
  | .hbm, ⟨48, _⟩ => ⟨S64x11008, .f32⟩
  | .hbm, ⟨49, _⟩ => ⟨S_, .f32⟩
  | .hbm, ⟨50, _⟩ => ⟨S64x11008, .f32⟩
  | .hbm, ⟨51, _⟩ => ⟨S64x11008, .f32⟩
  | .hbm, ⟨52, _⟩ => ⟨S64x11008, .f32⟩
  | .hbm, ⟨53, _⟩ => ⟨S64x11008, .f32⟩
  | .hbm, ⟨54, _⟩ => ⟨S11008x4096, .f32⟩
  | .hbm, ⟨55, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  shapeCasts_S4096x11008_S4096x86x128 : S4096x11008.ShapeCasts S4096x86x128
  bcast_S4096x86_S4096x86x1_0_1 : S4096x86.BroadcastsInDim S4096x86x1 (![0, 1] : Fin 2 → Fin S4096x86x1.rank)
  bcast_S4096x86x1_S4096x86x128_0_1_2 : S4096x86x1.BroadcastsInDim S4096x86x128 (![0, 1, 2] : Fin 3 → Fin S4096x86x128.rank)
  shapeCasts_S4096x86x128_S4096x11008 : S4096x86x128.ShapeCasts S4096x11008
  transposes_S11008x4096_S4096x11008_1_0 : S11008x4096.Transposes [1, 0] S4096x11008
  bcast_S_S64x11008 : S_.BroadcastsInDim S64x11008 (![] : Fin 0 → Fin S64x11008.rank)
  transposes_S4096x11008_S11008x4096_1_0 : S4096x11008.Transposes [1, 0] S11008x4096
  dot_S64x4096_S4096x11008_S64x11008_1_0_0_1_n_n_wf : DotDims.WF S64x4096 S4096x11008 S64x11008 [1] [0] [0] [1] [] []
  dot_S64x11008_S11008x4096_S64x4096_1_0_0_1_n_n_wf : DotDims.WF S64x11008 S11008x4096 S64x4096 [1] [0] [0] [1] [] []

variable [Facts₀]

def dot_S64x4096_S4096x11008_S64x11008_1_0_0_1_n_n : DotDims S64x4096 S4096x11008 S64x11008 where
  lhsContracting := [1]
  rhsContracting := [0]
  lhsNonContracting := [0]
  rhsNonContracting := [1]
  lhsBatch := []
  rhsBatch := []
  wf := dot_S64x4096_S4096x11008_S64x11008_1_0_0_1_n_n_wf
def dot_S64x11008_S11008x4096_S64x4096_1_0_0_1_n_n : DotDims S64x11008 S11008x4096 S64x4096 where
  lhsContracting := [1]
  rhsContracting := [0]
  lhsNonContracting := [0]
  rhsNonContracting := [1]
  lhsBatch := []
  rhsBatch := []
  wf := dot_S64x11008_S11008x4096_S64x4096_1_0_0_1_n_n_wf

class Facts : Prop extends Facts₀ where

variable [Facts]
-- ==== Proof.KernelRun.lean ====
/-
  The idealized kernel's run, with everything it leaves in memory named.

  The program is a host conversion followed by two pipelined kernel calls.  Its buffer contents are followed from the
  launch through the three segments: `W1` after the conversion, `W2` after the first call (its output array at what
  the call's write-backs leave, everything else as before), `W3` after the second.  Every weakly fair execution
  terminates without a fault, and in the final state EVERY buffer that outlives the kernels holds its `W3` contents.
  The frame (arguments unchanged) and the value of the result are both read off this one statement.
-/
import proofs.«121167_j43396349559335_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer at the contents the last
    segment leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The result array after the run: what the second call's write-backs leave in it. -/
theorem result_eq (r : PUnit × MemSt nD τ sig (Elt F))
    (h : ∀ c : Dev nD, ∀ b ∈ Pipeline.ucRefs τ sig, r.2.mem (((c : Thread nD τ)).1, b) = W3 m ρ c b) (c : Dev nD) :
    r.2.mem ((c.tc : Thread nD τ).loc main_v2) = (dat1 (V2 m ρ) c).arrAt 4 cfg1.N :=
  (h c _ (mem_uc main_v2 (by decide))).trans (W3_arr m ρ c 4)

/-- The arguments after the run: as launched. -/
theorem args_eq (r : PUnit × MemSt nD τ sig (Elt F))
    (h : ∀ c : Dev nD, ∀ b ∈ Pipeline.ucRefs τ sig, r.2.mem (((c : Thread nD τ)).1, b) = W3 m ρ c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨(h c _ (mem_uc main_arg0 (by decide))).trans (W3_main_arg0 m ρ c),
   (h c _ (mem_uc main_arg1 (by decide))).trans (W3_main_arg1 m ρ c),
   (h c _ (mem_uc main_arg2 (by decide))).trans (W3_main_arg2 m ρ c),
   (h c _ (mem_uc main_arg3 (by decide))).trans (W3_main_arg3 m ρ c),
   (h c _ (mem_uc main_arg4 (by decide))).trans (W3_main_arg4 m ρ c),
   (h c _ (mem_uc main_arg5 (by decide))).trans (W3_main_arg5 m ρ c),
   (h c _ (mem_uc main_arg6 (by decide))).trans (W3_main_arg6 m ρ c),
   (h c _ (mem_uc main_arg7 (by decide))).trans (W3_main_arg7 m ρ c),
   (h c _ (mem_uc main_arg8 (by decide))).trans (W3_main_arg8 m ρ c),
   (h c _ (mem_uc main_arg9 (by decide))).trans (W3_main_arg9 m ρ c)⟩

end Cert.KernelIdeal.Whole

end
-- ==== Proof.Spec.lean ====
/-
  The feed-forward block with group-quantized weights, as one function of its argument arrays over the extended reals.

  A quantized weight matrix is given by integer codes `q`, and per row and per group of 128 consecutive columns a
  scale `s` and an integer zero point `z`; its entry `(i, k)` is `(q[i, k] - z[i, k / 128]) · s[i, k / 128]`, the
  integers read exactly.  With `w1, w3` of 11008 rows and 4096 columns and `w2` of 4096 rows and 11008 columns, the
  block maps a `64 × 4096` activation `x` to

      out[t, h] = ∑ i, gate[t, i] · w2[h, i],    gate[t, i] = (x1 · σ(x1)) · x3,
      x1 = ∑ k, x[t, k] · w1[i, k],   x3 = ∑ k, x[t, k] · w3[i, k],   σ(u) = 1 / (1 + e^(-u)).

  The same entry formula serves a whole matrix and any block of its rows: it is stated for any number of rows.
-/
import Idealize.ShloMosaic.PureOps.Ideal
import Idealize.ShloMosaic.Lib.ValueIdx

noncomputable section

namespace Cert.QuantFfn

open Idealize.ShloMosaic Idealize.ShloMosaic.ValueIdx
open scoped BigOperators

/-- The group of 128 consecutive columns that column `k` of 4096 lies in. -/
def grpH (k : Fin 4096) : Fin 32 := ⟨k.val / 128, by have := k.isLt; omega⟩
/-- The group of 128 consecutive columns that column `k` of 11008 lies in. -/
def grpI (k : Fin 11008) : Fin 86 := ⟨k.val / 128, by have := k.isLt; omega⟩

/-- Entry `(i, k)` of a dequantized matrix: `(q[i, k] - z[i, grp k]) · s[i, grp k]`, the integers read exactly. -/
def wq {R C G : ℕ} (grp : Fin C → Fin G) (q : (⟨2, ![R, C]⟩ : Shape).Idx → BitVec 32)
    (s : (⟨2, ![R, G]⟩ : Shape).Idx → EReal) (z : (⟨2, ![R, G]⟩ : Shape).Idx → BitVec 32) (i : Fin R) (k : Fin C) : EReal :=
  ((((q (ix2 i k)).toInt : ℝ) : EReal) - (((z (ix2 i (grp k))).toInt : ℝ) : EReal)) * s (ix2 i (grp k))

/-- `x @ wᵀ` at `(t, i)` for a dequantized `w` of `R` rows over 4096 columns. -/
def proj {R : ℕ} (x : (⟨2, ![64, 4096]⟩ : Shape).Idx → EReal) (q : (⟨2, ![R, 4096]⟩ : Shape).Idx → BitVec 32)
    (s : (⟨2, ![R, 32]⟩ : Shape).Idx → EReal) (z : (⟨2, ![R, 32]⟩ : Shape).Idx → BitVec 32) (t : Fin 64) (i : Fin R) : EReal :=
  ∑ k : Fin 4096, x (ix2 t k) * wq grpH q s z i k

/-- The gated activation from its two projections: `(x1 · σ(x1)) · x3`. -/
def swiglu (x1 x3 : EReal) : EReal := (x1 * Ideal.logistic x1) * x3

/-- The gated activation at `(t, i)`, for weights of `R` rows. -/
def gateAt {R : ℕ} (x : (⟨2, ![64, 4096]⟩ : Shape).Idx → EReal)
    (q1 : (⟨2, ![R, 4096]⟩ : Shape).Idx → BitVec 32) (s1 : (⟨2, ![R, 32]⟩ : Shape).Idx → EReal) (z1 : (⟨2, ![R, 32]⟩ : Shape).Idx → BitVec 32)
    (q3 : (⟨2, ![R, 4096]⟩ : Shape).Idx → BitVec 32) (s3 : (⟨2, ![R, 32]⟩ : Shape).Idx → EReal) (z3 : (⟨2, ![R, 32]⟩ : Shape).Idx → BitVec 32)
    (t : Fin 64) (i : Fin R) : EReal :=
  swiglu (proj x q1 s1 z1 t i) (proj x q3 s3 z3 t i)

/-- The down projection at `(t, h)` of a `64 × 11008` activation `y`, for a dequantized `w2` of `R` rows. -/
def downAt {R : ℕ} (y : (⟨2, ![64, 11008]⟩ : Shape).Idx → EReal) (q2 : (⟨2, ![R, 11008]⟩ : Shape).Idx → BitVec 32)
    (s2 : (⟨2, ![R, 86]⟩ : Shape).Idx → EReal) (z2 : (⟨2, ![R, 86]⟩ : Shape).Idx → BitVec 32) (t : Fin 64) (h : Fin R) : EReal :=
  ∑ i : Fin 11008, y (ix2 t i) * wq grpI q2 s2 z2 h i

/-- A dequantized entry depends only on its own row of codes, scales and zero points. -/
theorem wq_congr {R R' C G : ℕ} (grp : Fin C → Fin G)
    (q : (⟨2, ![R, C]⟩ : Shape).Idx → BitVec 32) (s : (⟨2, ![R, G]⟩ : Shape).Idx → EReal) (z : (⟨2, ![R, G]⟩ : Shape).Idx → BitVec 32)
    (q' : (⟨2, ![R', C]⟩ : Shape).Idx → BitVec 32) (s' : (⟨2, ![R', G]⟩ : Shape).Idx → EReal) (z' : (⟨2, ![R', G]⟩ : Shape).Idx → BitVec 32)
    (i : Fin R) (i' : Fin R') (hq : ∀ k, q (ix2 i k) = q' (ix2 i' k)) (hs : ∀ g, s (ix2 i g) = s' (ix2 i' g))
    (hz : ∀ g, z (ix2 i g) = z' (ix2 i' g)) (k : Fin C) : wq grp q s z i k = wq grp q' s' z' i' k := by
  unfold wq
  rw [hq k, hs (grp k), hz (grp k)]

/-- A projection entry depends only on row `t` of the activation and row `i` of the weight's three arrays. -/
theorem proj_congr {R R' : ℕ} (x x' : (⟨2, ![64, 4096]⟩ : Shape).Idx → EReal)
    (q : (⟨2, ![R, 4096]⟩ : Shape).Idx → BitVec 32) (s : (⟨2, ![R, 32]⟩ : Shape).Idx → EReal) (z : (⟨2, ![R, 32]⟩ : Shape).Idx → BitVec 32)
    (q' : (⟨2, ![R', 4096]⟩ : Shape).Idx → BitVec 32) (s' : (⟨2, ![R', 32]⟩ : Shape).Idx → EReal) (z' : (⟨2, ![R', 32]⟩ : Shape).Idx → BitVec 32)
    (t : Fin 64) (i : Fin R) (i' : Fin R') (hx : ∀ k, x (ix2 t k) = x' (ix2 t k))
    (hq : ∀ k, q (ix2 i k) = q' (ix2 i' k)) (hs : ∀ g, s (ix2 i g) = s' (ix2 i' g)) (hz : ∀ g, z (ix2 i g) = z' (ix2 i' g)) :
    proj x q s z t i = proj x' q' s' z' t i' :=
  Finset.sum_congr rfl fun k _ => by rw [hx k, wq_congr grpH q s z q' s' z' i i' hq hs hz k]

/-- The gated activation at `(t, i)` depends only on row `t` of the activation and row `i` of the six weight arrays. -/
theorem gateAt_congr {R R' : ℕ} (x x' : (⟨2, ![64, 4096]⟩ : Shape).Idx → EReal)
    (q1 : (⟨2, ![R, 4096]⟩ : Shape).Idx → BitVec 32) (s1 : (⟨2, ![R, 32]⟩ : Shape).Idx → EReal) (z1 : (⟨2, ![R, 32]⟩ : Shape).Idx → BitVec 32)
    (q3 : (⟨2, ![R, 4096]⟩ : Shape).Idx → BitVec 32) (s3 : (⟨2, ![R, 32]⟩ : Shape).Idx → EReal) (z3 : (⟨2, ![R, 32]⟩ : Shape).Idx → BitVec 32)
    (q1' : (⟨2, ![R', 4096]⟩ : Shape).Idx → BitVec 32) (s1' : (⟨2, ![R', 32]⟩ : Shape).Idx → EReal) (z1' : (⟨2, ![R', 32]⟩ : Shape).Idx → BitVec 32)
    (q3' : (⟨2, ![R', 4096]⟩ : Shape).Idx → BitVec 32) (s3' : (⟨2, ![R', 32]⟩ : Shape).Idx → EReal) (z3' : (⟨2, ![R', 32]⟩ : Shape).Idx → BitVec 32)
    (t : Fin 64) (i : Fin R) (i' : Fin R') (hx : ∀ k, x (ix2 t k) = x' (ix2 t k))
    (hq1 : ∀ k, q1 (ix2 i k) = q1' (ix2 i' k)) (hs1 : ∀ g, s1 (ix2 i g) = s1' (ix2 i' g)) (hz1 : ∀ g, z1 (ix2 i g) = z1' (ix2 i' g))
    (hq3 : ∀ k, q3 (ix2 i k) = q3' (ix2 i' k)) (hs3 : ∀ g, s3 (ix2 i g) = s3' (ix2 i' g)) (hz3 : ∀ g, z3 (ix2 i g) = z3' (ix2 i' g)) :
    gateAt x q1 s1 z1 q3 s3 z3 t i = gateAt x' q1' s1' z1' q3' s3' z3' t i' := by
  unfold gateAt
  rw [proj_congr x x' q1 s1 z1 q1' s1' z1' t i i' hx hq1 hs1 hz1, proj_congr x x' q3 s3 z3 q3' s3' z3' t i i' hx hq3 hs3 hz3]

/-- A down-projection entry depends only on row `t` of the activation and row `h` of the weight's three arrays. -/
theorem downAt_congr {R R' : ℕ} (y y' : (⟨2, ![64, 11008]⟩ : Shape).Idx → EReal)
    (q : (⟨2, ![R, 11008]⟩ : Shape).Idx → BitVec 32) (s : (⟨2, ![R, 86]⟩ : Shape).Idx → EReal) (z : (⟨2, ![R, 86]⟩ : Shape).Idx → BitVec 32)
    (q' : (⟨2, ![R', 11008]⟩ : Shape).Idx → BitVec 32) (s' : (⟨2, ![R', 86]⟩ : Shape).Idx → EReal) (z' : (⟨2, ![R', 86]⟩ : Shape).Idx → BitVec 32)
    (t : Fin 64) (h : Fin R) (h' : Fin R') (hy : ∀ i, y (ix2 t i) = y' (ix2 t i))
    (hq : ∀ i, q (ix2 h i) = q' (ix2 h' i)) (hs : ∀ g, s (ix2 h g) = s' (ix2 h' g)) (hz : ∀ g, z (ix2 h g) = z' (ix2 h' g)) :
    downAt y q s z t h = downAt y' q' s' z' t h' :=
  Finset.sum_congr rfl fun i _ => by rw [hy i, wq_congr grpI q s z q' s' z' h h' hq hs hz i]

/-- The gated activation as a `64 × 11008` array. -/
def gate (x : (⟨2, ![64, 4096]⟩ : Shape).Idx → EReal)
    (q1 : (⟨2, ![11008, 4096]⟩ : Shape).Idx → BitVec 32) (s1 : (⟨2, ![11008, 32]⟩ : Shape).Idx → EReal) (z1 : (⟨2, ![11008, 32]⟩ : Shape).Idx → BitVec 32)
    (q3 : (⟨2, ![11008, 4096]⟩ : Shape).Idx → BitVec 32) (s3 : (⟨2, ![11008, 32]⟩ : Shape).Idx → EReal) (z3 : (⟨2, ![11008, 32]⟩ : Shape).Idx → BitVec 32) :
    (⟨2, ![64, 11008]⟩ : Shape).Idx → EReal :=
  fun j => gateAt x q1 s1 z1 q3 s3 z3 (j 0) (j 1)

/-- The block's result as a `64 × 4096` array of the ten arguments. -/
def out (x : (⟨2, ![64, 4096]⟩ : Shape).Idx → EReal)
    (q1 : (⟨2, ![11008, 4096]⟩ : Shape).Idx → BitVec 32) (s1 : (⟨2, ![11008, 32]⟩ : Shape).Idx → EReal) (z1 : (⟨2, ![11008, 32]⟩ : Shape).Idx → BitVec 32)
    (q3 : (⟨2, ![11008, 4096]⟩ : Shape).Idx → BitVec 32) (s3 : (⟨2, ![11008, 32]⟩ : Shape).Idx → EReal) (z3 : (⟨2, ![11008, 32]⟩ : Shape).Idx → BitVec 32)
    (q2 : (⟨2, ![4096, 11008]⟩ : Shape).Idx → BitVec 32) (s2 : (⟨2, ![4096, 86]⟩ : Shape).Idx → EReal) (z2 : (⟨2, ![4096, 86]⟩ : Shape).Idx → BitVec 32) :
    (⟨2, ![64, 4096]⟩ : Shape).Idx → EReal :=
  fun j => downAt (gate x q1 s1 z1 q3 s3 z3) q2 s2 z2 (j 0) (j 1)

end Cert.QuantFfn

end
-- ==== Proof.LibGroupedAxis.lean ====
/-
  The last axis of a rank-2 array split into consecutive groups, and joined back, read at an index: the layouts of
  `x.reshape(a, b, n)` of an `[a, b * n]` array and of `v.reshape(a, b * n)` of an `[a, b, n]` array.

  Row-major positions decide both.  Entry `(i, g, l)` of the split array sits at position `(i * b + g) * n + l`,
  which is `i * c + (g * n + l)` when `c = b * n`: it is the operand's entry `(i, g * n + l)`.  Entry `(i, k)` of the
  joined array sits at `i * c + k`, which is `(i * b + k / n) * n + k % n`: it is the operand's entry
  `(i, k / n, k % n)`, column `k` lying in group `k / n` at offset `k % n`.
-/
import Idealize.ShloMosaic.Lib.Pipeline.Value
import Idealize.ShloMosaic.Lib.ValueIdx

noncomputable section

namespace Idealize.ShloMosaic.GroupedAxis

open Idealize.ShloMosaic Idealize.ShloMosaic.ValueIdx

variable {α : Type}

/-- Column `g * n + l` of a row of `c = b * n` columns, for a group `g < b` and an offset `l < n`. -/
def col {b n c : ℕ} (hc : c = b * n) (g : Fin b) (l : Fin n) : Fin c :=
  ⟨g.val * n + l.val, by
    have hg := g.isLt; have hl := l.isLt
    have h1 : g.val * n + n ≤ b * n := by
      have : (g.val + 1) * n ≤ b * n := Nat.mul_le_mul_right n hg
      rw [Nat.add_mul, Nat.one_mul] at this; exact this
    rw [hc]; omega⟩

/-- The group `k / n` of column `k` among `c = b * n` columns. -/
def group {b n c : ℕ} (hc : c = b * n) (hn : 0 < n) (k : Fin c) : Fin b :=
  ⟨k.val / n, by
    have hk : k.val < b * n := hc ▸ k.isLt
    exact (Nat.div_lt_iff_lt_mul hn).mpr hk⟩

/-- The offset `k % n` of column `k` inside its group. -/
def offset {n c : ℕ} (hn : 0 < n) (k : Fin c) : Fin n := ⟨k.val % n, Nat.mod_lt _ hn⟩

/-- An `[a, c]` array split to `[a, b, n]` (`c = b * n`) reads, at `(i, g, l)`, the operand at `(i, g * n + l)`. -/
theorem shapeCast_split_apply {a b n c : ℕ} (hc : c = b * n) (x : (⟨2, ![a, c]⟩ : Shape).Idx → α)
    (h : (⟨2, ![a, c]⟩ : Shape).ShapeCasts ⟨3, ![a, b, n]⟩) (i : Fin a) (g : Fin b) (l : Fin n) :
    shapeCast ⟨3, ![a, b, n]⟩ x h (ix3 i g l) = x (ix2 i (col hc g l)) :=
  shapeCast_apply x h _ _ (by
    rw [Shape.rowMajor_val_two, Shape.rowMajor_val_three]
    show i.val * c + (g.val * n + l.val) = (i.val * b + g.val) * n + l.val
    rw [hc, Nat.add_mul, Nat.mul_assoc, Nat.add_assoc])

/-- An `[a, b, n]` array joined to `[a, c]` (`c = b * n`) reads, at `(i, k)`, the operand at `(i, k / n, k % n)`. -/
theorem shapeCast_join_apply {a b n c : ℕ} (hc : c = b * n) (hn : 0 < n) (v : (⟨3, ![a, b, n]⟩ : Shape).Idx → α)
    (h : (⟨3, ![a, b, n]⟩ : Shape).ShapeCasts ⟨2, ![a, c]⟩) (i : Fin a) (k : Fin c) :
    shapeCast ⟨2, ![a, c]⟩ v h (ix2 i k) = v (ix3 i (group hc hn k) (offset hn k)) :=
  shapeCast_apply v h _ _ (by
    rw [Shape.rowMajor_val_three, Shape.rowMajor_val_two]
    show (i.val * b + k.val / n) * n + k.val % n = i.val * c + k.val
    have e : k.val / n * n + k.val % n = k.val := Nat.div_add_mod' k.val n
    generalize k.val = kv at e ⊢
    rw [hc, Nat.add_mul, Nat.mul_assoc, Nat.add_assoc, e])

/-- Splitting then rejoining lands on the same column: column `k` is offset `k % n` of group `k / n`. -/
theorem col_group_offset {b n c : ℕ} (hc : c = b * n) (hn : 0 < n) (k : Fin c) :
    col hc (group hc hn k) (offset hn k) = k :=
  Fin.ext (Nat.div_add_mod' k.val n)

end Idealize.ShloMosaic.GroupedAxis

end
-- ==== Proof.LibTrailingUnitAxis.lean ====
/-
  A trailing unit axis added by a shape cast and then spread by a broadcast, read at an index: the layout of
  `x[:, :, None]` broadcast along a new last axis.

  An `[a, b]` array cast to `[a, b, 1]` reads, at `(i, j, u)`, the operand at `(i, j)`: the two indices have the same
  row-major position, the unit coordinate being zero.  An `[a, b, 1]` array broadcast to `[a, b, n]` reads, at
  `(i, j, l)`, the operand at `(i, j, 0)`: the first two axes are kept and the unit axis is repeated.  Composed, the cast
  then the broadcast of `g` read `g (i, j)` at every `(i, j, l)`.
-/
import Idealize.ShloMosaic.Lib.Pipeline.Value
import Idealize.ShloMosaic.Lib.ValueIdx

noncomputable section

namespace Idealize.ShloMosaic.TrailingUnitAxis

open Idealize.ShloMosaic Idealize.ShloMosaic.ValueIdx

variable {α : Type}

/-- An `[a, b]` array cast to `[a, b, 1]` reads, at `(i, j, u)`, the operand at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, n]` reads, at `(i, j, l)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (l : Fin n) :
    broadcastTo ⟨3, ![a, b, n]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The cast then the broadcast: `g` repeated along the new last axis. -/
theorem broadcastTo_shapeCast_apply {a b n : ℕ} (g : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (i : Fin a) (j : Fin b) (l : Fin n) :
    broadcastTo ⟨3, ![a, b, n]⟩ (shapeCast ⟨3, ![a, b, 1]⟩ g hc) hb (ix3 i j l) = g (ix2 i j) := by
  rw [broadcastTo_ab1_abn_apply, shapeCast_ab_ab1_apply]

end Idealize.ShloMosaic.TrailingUnitAxis

end
-- ==== Proof.LibGroupDequant.lean ====
/-
  Group-wise dequantization of a matrix, read at an index, over the extended reals.

  A code matrix `q` of `a` rows and `c = b * n` columns is split into `b` groups of `n` consecutive columns; a zero
  point `z` and a scale `s`, one per row and group, are repeated along the group (`z[:, :, None]`, `s[:, :, None]`), the
  zero point is subtracted, the difference scaled, and the groups are joined back:

      ((q.reshape(a, b, n) - z[:, :, None]) * s[:, :, None]).reshape(a, c).

  Entry `(i, k)` of the result is `(q[i, k] - z[i, k / n]) · s[i, k / n]`: joining reads group `k / n` at offset `k % n`,
  splitting reads column `(k / n) * n + k % n = k`, and the repeated arrays do not depend on the offset.
-/
import Idealize.ShloMosaic.PureOps.Ideal
import proofs.«121167_j43396349559335_2_alg».proof.Proof.LibGroupedAxis
import proofs.«121167_j43396349559335_2_alg».proof.Proof.LibTrailingUnitAxis

noncomputable section

namespace Idealize.ShloMosaic.GroupDequant

open Idealize.ShloMosaic Idealize.ShloMosaic.ValueIdx Idealize.ShloMosaic.GroupedAxis Idealize.ShloMosaic.TrailingUnitAxis

/-- The dequantized matrix at `(i, k)`: the code there minus its group's zero point, times its group's scale. -/
theorem dequant_apply {a b n c : ℕ} (hc : c = b * n) (hn : 0 < n)
    (q : (⟨2, ![a, c]⟩ : Shape).Idx → EReal) (z s : (⟨2, ![a, b]⟩ : Shape).Idx → EReal)
    (hsplit : (⟨2, ![a, c]⟩ : Shape).ShapeCasts ⟨3, ![a, b, n]⟩)
    (hunit : (⟨2, ![a, b]⟩ : Shape).ShapeCasts ⟨3, ![a, b, 1]⟩)
    (hrep : (⟨3, ![a, b, 1]⟩ : Shape).Broadcasts ⟨3, ![a, b, n]⟩)
    (hjoin : (⟨3, ![a, b, n]⟩ : Shape).ShapeCasts ⟨2, ![a, c]⟩) (i : Fin a) (k : Fin c) :
    shapeCast ⟨2, ![a, c]⟩
        (fun y => (shapeCast ⟨3, ![a, b, n]⟩ q hsplit y - broadcastTo ⟨3, ![a, b, n]⟩ (shapeCast ⟨3, ![a, b, 1]⟩ z hunit) hrep y)
          * broadcastTo ⟨3, ![a, b, n]⟩ (shapeCast ⟨3, ![a, b, 1]⟩ s hunit) hrep y)
        hjoin (ix2 i k)
      = (q (ix2 i k) - z (ix2 i (group hc hn k))) * s (ix2 i (group hc hn k)) := by
  refine (shapeCast_join_apply hc hn _ hjoin i k).trans ?_
  show (shapeCast ⟨3, ![a, b, n]⟩ q hsplit (ix3 i (group hc hn k) (offset hn k))
      - broadcastTo ⟨3, ![a, b, n]⟩ (shapeCast ⟨3, ![a, b, 1]⟩ z hunit) hrep (ix3 i (group hc hn k) (offset hn k)))
      * broadcastTo ⟨3, ![a, b, n]⟩ (shapeCast ⟨3, ![a, b, 1]⟩ s hunit) hrep (ix3 i (group hc hn k) (offset hn k)) = _
  rw [shapeCast_split_apply hc q hsplit, broadcastTo_shapeCast_apply z hunit hrep, broadcastTo_shapeCast_apply s hunit hrep,
    col_group_offset hc hn k]

end Idealize.ShloMosaic.GroupDequant

end
-- ==== Proof.LibMatmulLastAxis.lean ====
/-
  A matrix product that contracts the LAST axis of both rank-2 operands (`x @ w.T`: an `M × K` left operand, an
  `N × K` right operand, an `M × N` result, dimension numbers `<[1], [1], [0], [0], [0, 0, 1, 0], [], []>`), read
  at one entry over the extended reals.

  Whatever record of dimension numbers carries those six lists, the left operand is read at row `p` of the result
  index and column `k` of the contraction, the right operand at row `q` and column `k`; the contraction index
  is one coordinate, so the sum over it is a sum over `Fin K`. Into a zero accumulator the product's entry
  `(p, q)` is therefore `∑ k, l (p, k) · r (q, k)`; into any accumulator it is the accumulator's entry plus that
  sum.
-/
import Idealize.ShloMosaic.PureOps.Ideal
import Idealize.ShloMosaic.PureOps.Ideal.Laws
import Idealize.ShloMosaic.Lib.ValueIdx

noncomputable section

namespace Idealize.ShloMosaic.MatmulLastAxis

open Idealize.ShloMosaic Idealize.ShloMosaic.ValueIdx
open scoped BigOperators

variable {M N K : Nat}

/-- The six lists of dimension numbers of `x @ w.T`. -/
structure IsLastAxis (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

variable {D : DotDims ⟨2, ![M, K]⟩ ⟨2, ![N, K]⟩ ⟨2, ![M, N]⟩}

theorem IsLastAxis.rank_contr (h : IsLastAxis D) : D.contr.rank = 1 := by
  rw [D.rank_contr, h.lc]; rfl

theorem IsLastAxis.size_contr (h : IsLastAxis D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsLastAxis.lhs_row (h : IsLastAxis D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's row is the result's column. -/
theorem IsLastAxis.rhs_row (h : IsLastAxis D) (j : (⟨2, ![M, N]⟩ : Shape).Idx) (k : D.contr.Idx) :
    (D.rhsIdx j k 0).val = (j 1).val := by
  have hb : (0 : Fin (⟨2, ![N, K]⟩ : Shape).rank) ∉ D.rhsBatch := by rw [h.rb]; exact List.not_mem_nil
  have hn : (0 : Fin (⟨2, ![N, K]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsLastAxis.contrEquiv (h : IsLastAxis D) : D.contr.Idx ≃ Fin K :=
  contrEquiv1 D K h.rank_contr h.size_contr

/-- The two operands' indices at result entry `(p, q)` and contraction coordinate `k`. -/
theorem IsLastAxis.lhsIdx_eq (h : IsLastAxis D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsLastAxis.rhsIdx_eq (h : IsLastAxis D) (p : Fin M) (q : Fin N) (k : Fin K) :
    D.rhsIdx (ix2 p q) (h.contrEquiv.symm k) = ix2 q k := by
  funext a
  apply Fin.ext
  match a with
  | ⟨0, _⟩ => exact h.rhs_row (ix2 p q) _
  | ⟨1, _⟩ =>
    show (D.rhsIdx (ix2 p q) (h.contrEquiv.symm k) 1).val = k.val
    rw [D.rhsIdx_val_of_single h.rc]
    exact contrEquiv1_symm_val D K h.rank_contr h.size_contr k

/-- The product into an accumulator, read at entry `(p, q)`: the accumulator there plus the sum over the shared last
    axis of the operands' products. -/
theorem matmul_apply (h : IsLastAxis D) {φ₁ φ₂ : FTy} (prec : Option ContractPrecision)
    (l : FVec Ideal ⟨2, ![M, K]⟩ φ₁) (r : FVec Ideal ⟨2, ![N, K]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 q k) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsLastAxis D) {φ₁ φ₂ : FTy} (prec : Option ContractPrecision)
    (l : FVec Ideal ⟨2, ![M, K]⟩ φ₁) (r : FVec Ideal ⟨2, ![N, K]⟩ φ₂) (p : Fin M) (q : Fin N) :
    FloatOps.matmul D prec l r (constant ⟨2, ![M, N]⟩ .f32 0x00000000#32) (ix2 p q)
      = ∑ k : Fin K, l (ix2 p k) * r (ix2 q k) := by
  rw [matmul_apply h]
  show Ideal.ofBits .f32 0x00000000#32 + _ = _
  rw [Ideal.ofBits_zero_f32, zero_add]

end Idealize.ShloMosaic.MatmulLastAxis

end
-- ==== Proof.Payloads.lean ====
/-
  What each kernel body computes from the blocks it loads, read at one entry over the extended reals.

  The first body dequantizes two `256 × 4096` blocks of codes with their `256 × 32` scales and zero points, multiplies
  the whole `64 × 4096` activation by the transpose of each (into a zero accumulator), and stores
  `(x1 · σ(x1)) · x3`: at `(t, j)` this is the gated activation of the specification for weights of 256 rows.  The
  second dequantizes a `128 × 11008` block and multiplies the whole `64 × 11008` gated activation by its transpose: at
  `(t, h)` this is the specification's down projection for a weight of 128 rows.  Changes of float format are the
  identity here, and an integer converts to itself.
-/
import proofs.«121167_j43396349559335_2_alg».proof.Proof.Gen.KernelIdeal.Skeleton
import proofs.«121167_j43396349559335_2_alg».proof.Proof.Spec
import proofs.«121167_j43396349559335_2_alg».proof.Proof.LibGroupDequant
import proofs.«121167_j43396349559335_2_alg».proof.Proof.LibMatmulLastAxis
import Idealize.ShloMosaic.Lib.Pipeline.Value
import Idealize.ShloMosaic.Lib.ValueIdx

noncomputable section

namespace Cert.KernelIdeal.Payload

open Cert.KernelIdeal Cert.KernelIdeal.Gen Cert.QuantFfn
open Idealize.ShloMosaic Idealize.ShloMosaic.ValueIdx
open scoped BigOperators

/-! ## The gate body -/

/-- A dequantized `256 × 4096` block as the body spells it. -/
def wBlkH (q : Vec Ideal S256x4096 .i32) (z : Vec Ideal S256x32 .i32) (s : Vec Ideal S256x32 .f32) : FVec Ideal S256x4096 .bf16 :=
  shapeCast S256x4096
    (mulf (subf (shapeCast S256x32x128 (sitofp .bf16 q) shapeCasts_S256x4096_S256x32x128)
        (broadcastTo S256x32x128 (shapeCast S256x32x1 (sitofp .bf16 z) shapeCasts_S256x32_S256x32x1) broadcasts_S256x32x1_S256x32x128))
      (broadcastTo S256x32x128 (shapeCast S256x32x1 (truncf .bf16 s bitsLt_bf16_f32) shapeCasts_S256x32_S256x32x1) broadcasts_S256x32x1_S256x32x128))
    shapeCasts_S256x32x128_S256x4096

/-- Its entry `(j, k)` is the specification's dequantized entry. -/
theorem wBlkH_apply (q : Vec Ideal S256x4096 .i32) (z : Vec Ideal S256x32 .i32) (s : Vec Ideal S256x32 .f32) (j : Fin 256) (k : Fin 4096) :
    wBlkH q z s (ix2 j k) = wq grpH q s z j k :=
  GroupDequant.dequant_apply (a := 256) (b := 32) (n := 128) (c := 4096) (by norm_num) (by norm_num)
    (sitofp (F := Ideal) .bf16 q) (sitofp (F := Ideal) .bf16 z) (truncf (F := Ideal) .bf16 s bitsLt_bf16_f32)
    shapeCasts_S256x4096_S256x32x128 shapeCasts_S256x32_S256x32x1 broadcasts_S256x32x1_S256x32x128 shapeCasts_S256x32x128_S256x4096 j k

/-- The activation times the transpose of a dequantized block, into the zero accumulator. -/
def projBlk (x : Vec Ideal S64x4096 .bf16) (q : Vec Ideal S256x4096 .i32) (z : Vec Ideal S256x32 .i32) (s : Vec Ideal S256x32 .f32) : FVec Ideal S64x256 .f32 :=
  matmul dot_S64x4096_S256x4096_S64x256_1_1_0_0_n_n none
    (shapeCast S64x4096 x shapeCasts_S64x4096_S64x4096 : FVec Ideal S64x4096 .bf16) (wBlkH q z s)
    (constant S64x256 .f32 0x00000000#32)

theorem gateDims : MatmulLastAxis.IsLastAxis (M := 64) (N := 256) (K := 4096) dot_S64x4096_S256x4096_S64x256_1_1_0_0_n_n :=
  ⟨rfl, rfl, rfl, rfl, rfl, rfl⟩

/-- Its entry `(t, j)` is the specification's projection. -/
theorem projBlk_apply (x : Vec Ideal S64x4096 .bf16) (q : Vec Ideal S256x4096 .i32) (z : Vec Ideal S256x32 .i32) (s : Vec Ideal S256x32 .f32)
    (t : Fin 64) (j : Fin 256) : projBlk x q z s (ix2 t j) = proj x q s z t j := by
  unfold projBlk
  rw [shapeCast_self]
  refine (MatmulLastAxis.matmul_zero_apply gateDims none x (wBlkH q z s) t j).trans ?_
  exact Finset.sum_congr rfl fun k _ => congrArg (x (ix2 t k) * ·) (wBlkH_apply q z s j k)

/-- The body's stored value is `(x1 · σ(x1)) · x3` of the two projections. -/
theorem gate_pay_eq (v0 : Vec Ideal S256x4096 .i32) (v3 : Vec Ideal S256x32 .i32) (v6 : Vec Ideal S256x32 .f32)
    (v14 : Vec Ideal S256x4096 .i32) (v17 : Vec Ideal S256x32 .i32) (v20 : Vec Ideal S256x32 .f32) (v28 : Vec Ideal S64x4096 .bf16) :
    k0_pay1 (F := Ideal) v0 v3 v6 v14 v17 v20 v28
      = mulf (mulf (projBlk v28 v0 v3 v6) (logistic (projBlk v28 v0 v3 v6))) (projBlk v28 v14 v17 v20) := rfl

/-- The gate body's stored value at `(t, j)`: the gated activation for the 256 rows of the loaded blocks. -/
theorem gate_payload (v0 : Vec Ideal S256x4096 .i32) (v3 : Vec Ideal S256x32 .i32) (v6 : Vec Ideal S256x32 .f32)
    (v14 : Vec Ideal S256x4096 .i32) (v17 : Vec Ideal S256x32 .i32) (v20 : Vec Ideal S256x32 .f32) (v28 : Vec Ideal S64x4096 .bf16)
    (t : Fin 64) (j : Fin 256) :
    k0_pay1 (F := Ideal) v0 v3 v6 v14 v17 v20 v28 (ix2 t j) = gateAt v28 v0 v6 v3 v14 v20 v17 t j := by
  rw [gate_pay_eq]
  show (projBlk v28 v0 v3 v6 (ix2 t j) * Ideal.logistic (projBlk v28 v0 v3 v6 (ix2 t j))) * projBlk v28 v14 v17 v20 (ix2 t j) = _
  rw [projBlk_apply, projBlk_apply]
  rfl

/-! ## The down-projection body -/

/-- A dequantized `128 × 11008` block as the body spells it. -/
def wBlkI (q : Vec Ideal S128x11008 .i32) (z : Vec Ideal S128x86 .i32) (s : Vec Ideal S128x86 .f32) : FVec Ideal S128x11008 .bf16 :=
  shapeCast S128x11008
    (mulf (subf (shapeCast S128x86x128 (sitofp .bf16 q) shapeCasts_S128x11008_S128x86x128)
        (broadcastTo S128x86x128 (shapeCast S128x86x1 (sitofp .bf16 z) shapeCasts_S128x86_S128x86x1) broadcasts_S128x86x1_S128x86x128))
      (broadcastTo S128x86x128 (shapeCast S128x86x1 (truncf .bf16 s bitsLt_bf16_f32) shapeCasts_S128x86_S128x86x1) broadcasts_S128x86x1_S128x86x128))
    shapeCasts_S128x86x128_S128x11008

theorem wBlkI_apply (q : Vec Ideal S128x11008 .i32) (z : Vec Ideal S128x86 .i32) (s : Vec Ideal S128x86 .f32) (h : Fin 128) (i : Fin 11008) :
    wBlkI q z s (ix2 h i) = wq grpI q s z h i :=
  GroupDequant.dequant_apply (a := 128) (b := 86) (n := 128) (c := 11008) (by norm_num) (by norm_num)
    (sitofp (F := Ideal) .bf16 q) (sitofp (F := Ideal) .bf16 z) (truncf (F := Ideal) .bf16 s bitsLt_bf16_f32)
    shapeCasts_S128x11008_S128x86x128 shapeCasts_S128x86_S128x86x1 broadcasts_S128x86x1_S128x86x128 shapeCasts_S128x86x128_S128x11008 h i

theorem downDims : MatmulLastAxis.IsLastAxis (M := 64) (N := 128) (K := 11008) dot_S64x11008_S128x11008_S64x128_1_1_0_0_n_n :=
  ⟨rfl, rfl, rfl, rfl, rfl, rfl⟩

/-- The body's stored value is the activation times the transpose of the dequantized block. -/
theorem down_pay_eq (v0 : Vec Ideal S128x11008 .i32) (v3 : Vec Ideal S128x86 .i32) (v6 : Vec Ideal S128x86 .f32) (v14 : Vec Ideal S64x11008 .f32) :
    k1_pay1 (F := Ideal) v0 v3 v6 v14
      = matmul dot_S64x11008_S128x11008_S64x128_1_1_0_0_n_n none
          (truncf .bf16 (shapeCast S64x11008 v14 shapeCasts_S64x11008_S64x11008 : FVec Ideal S64x11008 .f32) bitsLt_bf16_f32) (wBlkI v0 v3 v6)
          (constant S64x128 .f32 0x00000000#32) := rfl

/-- The down body's stored value at `(t, h)`: the down projection for the 128 rows of the loaded block. -/
theorem down_payload (v0 : Vec Ideal S128x11008 .i32) (v3 : Vec Ideal S128x86 .i32) (v6 : Vec Ideal S128x86 .f32) (v14 : Vec Ideal S64x11008 .f32)
    (t : Fin 64) (h : Fin 128) :
    k1_pay1 (F := Ideal) v0 v3 v6 v14 (ix2 t h) = downAt v14 v0 v6 v3 t h := by
  rw [down_pay_eq, shapeCast_self]
  refine (MatmulLastAxis.matmul_zero_apply downDims none (truncf (F := Ideal) .bf16 v14 bitsLt_bf16_f32) (wBlkI v0 v3 v6) t h).trans ?_
  exact Finset.sum_congr rfl fun i _ => congrArg (v14 (ix2 t i) * ·) (wBlkI_apply v0 v3 v6 h i)

end Cert.KernelIdeal.Payload

end
-- ==== Proof.GateArray.lean ====
/-
  The first kernel call's output array, as one function of the arrays the call finds.

  The call runs 43 grid points.  At point `t` it loads the whole `64 × 4096` activation, rows `256 t … 256 t + 255` of
  the two code matrices and of their scales and zero points, and writes back columns `256 t … 256 t + 255` of the
  `64 × 11008` output.  What it writes at `(p, j)` of that block is the gated activation for row `j` of the loaded
  blocks, which is row `256 t + j` of the whole matrices: entry `(p, 256 t + j)` of the specification's `gate`.  The 43
  column blocks cover the output, so the output array ends holding `gate` of the arrays the call was entered with.
-/
import proofs.«121167_j43396349559335_2_alg».proof.Proof.Gen.KernelIdeal.Frame
import proofs.«121167_j43396349559335_2_alg».proof.Proof.Payloads
import Idealize.ShloMosaic.Lib.Pipeline.Value

set_option maxRecDepth 16384

noncomputable section

namespace Cert.KernelIdeal.GateArray

open Cert.KernelIdeal Cert.KernelIdeal.Gen Cert.QuantFfn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the activation's is fixed, the six weight arrays' row block
    is the point, the output's column block is the point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = t.val :=
  (by decide +kernel : ∀ t : Fin grid0.N, _)

/-- Row `256 t + j` of the 11008: the row of the whole matrices that row `j` of point `t`'s blocks is. -/
def row (t : Fin cfg0.N) (j : Fin 256) : Fin 11008 :=
  ⟨t.val * 256 + j.val, by have ht := t.isLt; have hN : cfg0.N = 43 := N_0; have hj := j.isLt; omega⟩

/-! ## Each input block, read at an entry, is the array at the corresponding entry -/

theorem blk_x (c : Dev nD) (t : Fin cfg0.N) (p : Fin 64) (k : Fin 4096) :
    (iblk0 V c 0 t : Vec Ideal S64x4096 .bf16) (ix2 p k) = (V c main_v0 : S64x4096.Idx → EReal) (ix2 p k) := by
  obtain ⟨e0, e1, -⟩ := idx_facts t
  unfold iblk0
  rw [View.read_apply]
  show V c main_v0 _ = V c main_v0 _
  refine congrArg (V c main_v0) (funext fun a => Fin.ext ?_)
  match a with
  | ⟨0, _⟩ => show win0_0.index t (0 : Fin 2) * 64 + 1 * p.val = p.val; rw [e0]; omega
  | ⟨1, _⟩ => show win0_0.index t (1 : Fin 2) * 4096 + 1 * k.val = k.val; rw [e1]; omega

theorem blk_q1 (c : Dev nD) (t : Fin cfg0.N) (j : Fin 256) (k : Fin 4096) :
    (iblk0 V c 1 t : Vec Ideal S256x4096 .i32) (ix2 j k) = (V c main_arg1 : S11008x4096.Idx → BitVec 32) (ix2 (row t j) k) := by
  obtain ⟨-, -, e0, e1, -⟩ := idx_facts t
  unfold iblk0
  rw [View.read_apply]
  show V c main_arg1 _ = V c main_arg1 _
  refine congrArg (V c main_arg1) (funext fun a => Fin.ext ?_)
  match a with
  | ⟨0, _⟩ => show win0_1.index t (0 : Fin 2) * 256 + 1 * j.val = t.val * 256 + j.val; rw [e0]; omega
  | ⟨1, _⟩ => show win0_1.index t (1 : Fin 2) * 4096 + 1 * k.val = k.val; rw [e1]; omega

theorem blk_s1 (c : Dev nD) (t : Fin cfg0.N) (j : Fin 256) (g : Fin 32) :
    (iblk0 V c 2 t : Vec Ideal S256x32 .f32) (ix2 j g) = (V c main_arg2 : S11008x32.Idx → EReal) (ix2 (row t j) g) := by
  obtain ⟨-, -, -, -, e0, e1, -⟩ := idx_facts t
  unfold iblk0
  rw [View.read_apply]
  show V c main_arg2 _ = V c main_arg2 _
  refine congrArg (V c main_arg2) (funext fun a => Fin.ext ?_)
  match a with
  | ⟨0, _⟩ => show win0_2.index t (0 : Fin 2) * 256 + 1 * j.val = t.val * 256 + j.val; rw [e0]; omega
  | ⟨1, _⟩ => show win0_2.index t (1 : Fin 2) * 32 + 1 * g.val = g.val; rw [e1]; omega

theorem blk_z1 (c : Dev nD) (t : Fin cfg0.N) (j : Fin 256) (g : Fin 32) :
    (iblk0 V c 3 t : Vec Ideal S256x32 .i32) (ix2 j g) = (V c main_arg3 : S11008x32.Idx → BitVec 32) (ix2 (row t j) g) := by
  obtain ⟨-, -, -, -, -, -, e0, e1, -⟩ := idx_facts t
  unfold iblk0
  rw [View.read_apply]
  show V c main_arg3 _ = V c main_arg3 _
  refine congrArg (V c main_arg3) (funext fun a => Fin.ext ?_)
  match a with
  | ⟨0, _⟩ => show win0_3.index t (0 : Fin 2) * 256 + 1 * j.val = t.val * 256 + j.val; rw [e0]; omega
  | ⟨1, _⟩ => show win0_3.index t (1 : Fin 2) * 32 + 1 * g.val = g.val; rw [e1]; omega

theorem blk_q3 (c : Dev nD) (t : Fin cfg0.N) (j : Fin 256) (k : Fin 4096) :
    (iblk0 V c 4 t : Vec Ideal S256x4096 .i32) (ix2 j k) = (V c main_arg4 : S11008x4096.Idx → BitVec 32) (ix2 (row t j) k) := by
  obtain ⟨-, -, -, -, -, -, -, -, e0, e1, -⟩ := idx_facts t
  unfold iblk0
  rw [View.read_apply]
  show V c main_arg4 _ = V c main_arg4 _
  refine congrArg (V c main_arg4) (funext fun a => Fin.ext ?_)
  match a with
  | ⟨0, _⟩ => show win0_4.index t (0 : Fin 2) * 256 + 1 * j.val = t.val * 256 + j.val; rw [e0]; omega
  | ⟨1, _⟩ => show win0_4.index t (1 : Fin 2) * 4096 + 1 * k.val = k.val; rw [e1]; omega

theorem blk_s3 (c : Dev nD) (t : Fin cfg0.N) (j : Fin 256) (g : Fin 32) :
    (iblk0 V c 5 t : Vec Ideal S256x32 .f32) (ix2 j g) = (V c main_arg5 : S11008x32.Idx → EReal) (ix2 (row t j) g) := by
  obtain ⟨-, -, -, -, -, -, -, -, -, -, e0, e1, -⟩ := idx_facts t
  unfold iblk0
  rw [View.read_apply]
  show V c main_arg5 _ = V c main_arg5 _
  refine congrArg (V c main_arg5) (funext fun a => Fin.ext ?_)
  match a with
  | ⟨0, _⟩ => show win0_5.index t (0 : Fin 2) * 256 + 1 * j.val = t.val * 256 + j.val; rw [e0]; omega
  | ⟨1, _⟩ => show win0_5.index t (1 : Fin 2) * 32 + 1 * g.val = g.val; rw [e1]; omega

theorem blk_z3 (c : Dev nD) (t : Fin cfg0.N) (j : Fin 256) (g : Fin 32) :
    (iblk0 V c 6 t : Vec Ideal S256x32 .i32) (ix2 j g) = (V c main_arg6 : S11008x32.Idx → BitVec 32) (ix2 (row t j) g) := by
  obtain ⟨-, -, -, -, -, -, -, -, -, -, -, -, e0, e1, -⟩ := idx_facts t
  unfold iblk0
  rw [View.read_apply]
  show V c main_arg6 _ = V c main_arg6 _
  refine congrArg (V c main_arg6) (funext fun a => Fin.ext ?_)
  match a with
  | ⟨0, _⟩ => show win0_6.index t (0 : Fin 2) * 256 + 1 * j.val = t.val * 256 + j.val; rw [e0]; omega
  | ⟨1, _⟩ => show win0_6.index t (1 : Fin 2) * 32 + 1 * g.val = g.val; rw [e1]; omega

/-! ## What a point writes back -/

/-- The output array the call leaves: `gate` of the arrays it was entered with. -/
abbrev G (c : Dev nD) : S64x11008.Idx → EReal :=
  gate (V c main_v0) (V c main_arg1) (V c main_arg2) (V c main_arg3) (V c main_arg4) (V c main_arg5) (V c main_arg6)

/-- Entry `(p, j)` of the output block at point `t` is entry `(p, 256 t + j)` of the output array. -/
theorem emb_out (t : Fin cfg0.N) (p : Fin 64) (j : Fin 256) :
    ((cfg0.win 7).blk t).view.emb (ix2 p j) = (ix2 p (row t j) : S64x11008.Idx) := by
  obtain ⟨-, -, -, -, -, -, -, -, -, -, -, -, -, -, e0, e1⟩ := idx_facts t
  refine funext fun a => Fin.ext ?_
  match a with
  | ⟨0, _⟩ => show win0_7.index t (0 : Fin 2) * 64 + 1 * p.val = p.val; rw [e0]; omega
  | ⟨1, _⟩ => show win0_7.index t (1 : Fin 2) * 256 + 1 * j.val = t.val * 256 + j.val; rw [e1]; omega

/-- WHAT POINT `t` WRITES BACK is block `t` of `gate` of the arrays as the call finds them. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S256x4096) hz, View.ld_unit_zero (S := S256x32) hz, View.ld_unit_zero (S := S64x4096) hz]
  funext y
  obtain ⟨p, j, rfl⟩ : ∃ (p : Fin 64) (j : Fin 256), y = ix2 p j := ⟨y 0, y 1, eq_ix2 y⟩
  rw [View.read_apply, emb_out]
  show k0_pay1 (F := Ideal) (iblk0 V c 1 t) (iblk0 V c 3 t) (iblk0 V c 2 t) (iblk0 V c 4 t) (iblk0 V c 6 t) (iblk0 V c 5 t) (iblk0 V c 0 t) (ix2 p j)
    = gateAt (V c main_v0) (V c main_arg1) (V c main_arg2) (V c main_arg3) (V c main_arg4) (V c main_arg5) (V c main_arg6) p (row t j)
  refine (Payload.gate_payload (iblk0 V c 1 t) (iblk0 V c 3 t) (iblk0 V c 2 t) (iblk0 V c 4 t) (iblk0 V c 6 t) (iblk0 V c 5 t) (iblk0 V c 0 t) p j).trans ?_
  exact gateAt_congr (iblk0 V c 0 t) (V c main_v0) (iblk0 V c 1 t) (iblk0 V c 2 t) (iblk0 V c 3 t) (iblk0 V c 4 t) (iblk0 V c 5 t) (iblk0 V c 6 t)
    (V c main_arg1) (V c main_arg2) (V c main_arg3) (V c main_arg4) (V c main_arg5) (V c main_arg6) p j (row t j)
    (fun k => blk_x V c t p k) (fun k => blk_q1 V c t j k) (fun g => blk_s1 V c t j g) (fun g => blk_z1 V c t j g)
    (fun k => blk_q3 V c t j k) (fun g => blk_s3 V c t j g) (fun g => blk_z3 V c t j g)

/-! ## The blocks cover the output -/

/-- An index of the output is in point `t`'s block iff each coordinate is in the block's range on its axis. -/
theorem mem_blk (t : Fin cfg0.N) (i : S64x11008.Idx) :
    i ∈ ((cfg0.win 7).blk t).view.set ↔ ∀ a : Fin 2, win0_7.index t a * S64x256.size a ≤ (i a).val ∧ (i a).val < win0_7.index t a * S64x256.size a + S64x256.size a := by
  show i ∈ ((View.whole main_v1).slice (win0_7.rect t)).set ↔ _
  rw [View.set_slice_whole, Rect.mem_set_unit]
  exact Iff.rfl

/-- Column `n` of the output lies in the block of point `n / 256`. -/
theorem cover (i : S64x11008.Idx) : ∃ t : Fin cfg0.N, (cfg0.win 7).flush t = true ∧ i ∈ ((cfg0.win 7).blk t).view.set := by
  have hN : cfg0.N = 43 := N_0
  have h0 : (i 0).val < 64 := (i 0).isLt
  have h1 : (i 1).val < 11008 := (i 1).isLt
  refine ⟨⟨(i 1).val / 256, by rw [hN]; omega⟩, flush0_7 _, ?_⟩
  rw [mem_blk]
  obtain ⟨-, -, -, -, -, -, -, -, -, -, -, -, -, -, e0, e1⟩ := idx_facts ⟨(i 1).val / 256, by rw [hN]; omega⟩
  intro a
  match a with
  | ⟨0, _⟩ =>
    show win0_7.index _ (0 : Fin 2) * 64 ≤ (i 0).val ∧ (i 0).val < win0_7.index _ (0 : Fin 2) * 64 + 64
    rw [e0]; omega
  | ⟨1, _⟩ =>
    show win0_7.index _ (1 : Fin 2) * 256 ≤ (i 1).val ∧ (i 1).val < win0_7.index _ (1 : Fin 2) * 256 + 256
    rw [e1]; show (i 1).val / 256 * 256 ≤ (i 1).val ∧ (i 1).val < (i 1).val / 256 * 256 + 256; omega

/-- THE OUTPUT ARRAY after the call: `gate` of the arrays the call was entered with. -/
theorem final (c : Dev nD) : (dat0 V c).arrAt 7 cfg0.N = G V c :=
  (dat0 V c).arrAt_eq_of_cover 7 (G V c) (fun t _ => flushed_eq V c t) (cover)

end Cert.KernelIdeal.GateArray

end
-- ==== Proof.DownArray.lean ====
/-
  The second kernel call's output array, as one function of the arrays the call finds.

  The call runs 32 grid points.  At point `t` it loads rows `128 t … 128 t + 127` of the code matrix and of its scales
  and zero points, and the whole `64 × 11008` gated activation, and writes back columns `128 t … 128 t + 127` of the
  `64 × 4096` output.  What it writes at `(p, j)` of that block is the down projection for row `j` of the loaded blocks,
  which is row `128 t + j` of the whole matrix: entry `(p, 128 t + j)` of the specification's down projection.  The 32
  column blocks cover the output.
-/
import proofs.«121167_j43396349559335_2_alg».proof.Proof.Gen.KernelIdeal.Frame
import proofs.«121167_j43396349559335_2_alg».proof.Proof.Payloads
import Idealize.ShloMosaic.Lib.Pipeline.Value

set_option maxRecDepth 16384

noncomputable section

namespace Cert.KernelIdeal.DownArray

open Cert.KernelIdeal Cert.KernelIdeal.Gen Cert.QuantFfn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the three weight arrays' row block is the point, the
    activation's is fixed, the output's column block is the point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = t.val :=
  (by decide +kernel : ∀ t : Fin grid1.N, _)

/-- Row `128 t + j` of the 4096: the row of the whole matrix that row `j` of point `t`'s blocks is. -/
def row (t : Fin cfg1.N) (j : Fin 128) : Fin 4096 :=
  ⟨t.val * 128 + j.val, by have ht := t.isLt; have hN : cfg1.N = 32 := N_1; have hj := j.isLt; omega⟩

/-! ## Each input block, read at an entry, is the array at the corresponding entry -/

theorem blk_q (c : Dev nD) (t : Fin cfg1.N) (j : Fin 128) (i : Fin 11008) :
    (iblk1 V c 0 t : Vec Ideal S128x11008 .i32) (ix2 j i) = (V c main_arg7 : S4096x11008.Idx → BitVec 32) (ix2 (row t j) i) := by
  obtain ⟨e0, e1, -⟩ := idx_facts t
  unfold iblk1
  rw [View.read_apply]
  show V c main_arg7 _ = V c main_arg7 _
  refine congrArg (V c main_arg7) (funext fun a => Fin.ext ?_)
  match a with
  | ⟨0, _⟩ => show win1_0.index t (0 : Fin 2) * 128 + 1 * j.val = t.val * 128 + j.val; rw [e0]; omega
  | ⟨1, _⟩ => show win1_0.index t (1 : Fin 2) * 11008 + 1 * i.val = i.val; rw [e1]; omega

theorem blk_s (c : Dev nD) (t : Fin cfg1.N) (j : Fin 128) (g : Fin 86) :
    (iblk1 V c 1 t : Vec Ideal S128x86 .f32) (ix2 j g) = (V c main_arg8 : S4096x86.Idx → EReal) (ix2 (row t j) g) := by
  obtain ⟨-, -, e0, e1, -⟩ := idx_facts t
  unfold iblk1
  rw [View.read_apply]
  show V c main_arg8 _ = V c main_arg8 _
  refine congrArg (V c main_arg8) (funext fun a => Fin.ext ?_)
  match a with
  | ⟨0, _⟩ => show win1_1.index t (0 : Fin 2) * 128 + 1 * j.val = t.val * 128 + j.val; rw [e0]; omega
  | ⟨1, _⟩ => show win1_1.index t (1 : Fin 2) * 86 + 1 * g.val = g.val; rw [e1]; omega

theorem blk_z (c : Dev nD) (t : Fin cfg1.N) (j : Fin 128) (g : Fin 86) :
    (iblk1 V c 2 t : Vec Ideal S128x86 .i32) (ix2 j g) = (V c main_arg9 : S4096x86.Idx → BitVec 32) (ix2 (row t j) g) := by
  obtain ⟨-, -, -, -, e0, e1, -⟩ := idx_facts t
  unfold iblk1
  rw [View.read_apply]
  show V c main_arg9 _ = V c main_arg9 _
  refine congrArg (V c main_arg9) (funext fun a => Fin.ext ?_)
  match a with
  | ⟨0, _⟩ => show win1_2.index t (0 : Fin 2) * 128 + 1 * j.val = t.val * 128 + j.val; rw [e0]; omega
  | ⟨1, _⟩ => show win1_2.index t (1 : Fin 2) * 86 + 1 * g.val = g.val; rw [e1]; omega

theorem blk_y (c : Dev nD) (t : Fin cfg1.N) (p : Fin 64) (i : Fin 11008) :
    (iblk1 V c 3 t : Vec Ideal S64x11008 .f32) (ix2 p i) = (V c main_v1 : S64x11008.Idx → EReal) (ix2 p i) := by
  obtain ⟨-, -, -, -, -, -, e0, e1, -⟩ := idx_facts t
  unfold iblk1
  rw [View.read_apply]
  show V c main_v1 _ = V c main_v1 _
  refine congrArg (V c main_v1) (funext fun a => Fin.ext ?_)
  match a with
  | ⟨0, _⟩ => show win1_3.index t (0 : Fin 2) * 64 + 1 * p.val = p.val; rw [e0]; omega
  | ⟨1, _⟩ => show win1_3.index t (1 : Fin 2) * 11008 + 1 * i.val = i.val; rw [e1]; omega

/-! ## What a point writes back -/

/-- The output array the call leaves: the down projection of the arrays it was entered with. -/
abbrev G (c : Dev nD) : S64x4096.Idx → EReal :=
  fun i => downAt (V c main_v1) (V c main_arg7) (V c main_arg8) (V c main_arg9) (i 0) (i 1)

/-- Entry `(p, j)` of the output block at point `t` is entry `(p, 128 t + j)` of the output array. -/
theorem emb_out (t : Fin cfg1.N) (p : Fin 64) (j : Fin 128) :
    ((cfg1.win 4).blk t).view.emb (ix2 p j) = (ix2 p (row t j) : S64x4096.Idx) := by
  obtain ⟨-, -, -, -, -, -, -, -, e0, e1⟩ := idx_facts t
  refine funext fun a => Fin.ext ?_
  match a with
  | ⟨0, _⟩ => show win1_4.index t (0 : Fin 2) * 64 + 1 * p.val = p.val; rw [e0]; omega
  | ⟨1, _⟩ => show win1_4.index t (1 : Fin 2) * 128 + 1 * j.val = t.val * 128 + j.val; rw [e1]; omega

/-- WHAT POINT `t` WRITES BACK is block `t` of the down projection of the arrays as the call finds them. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S128x11008) hz, View.ld_unit_zero (S := S128x86) hz, View.ld_unit_zero (S := S64x11008) hz]
  funext y
  obtain ⟨p, j, rfl⟩ : ∃ (p : Fin 64) (j : Fin 128), y = ix2 p j := ⟨y 0, y 1, eq_ix2 y⟩
  rw [View.read_apply, emb_out]
  show k1_pay1 (F := Ideal) (iblk1 V c 0 t) (iblk1 V c 2 t) (iblk1 V c 1 t) (iblk1 V c 3 t) (ix2 p j)
    = downAt (V c main_v1) (V c main_arg7) (V c main_arg8) (V c main_arg9) p (row t j)
  refine (Payload.down_payload (iblk1 V c 0 t) (iblk1 V c 2 t) (iblk1 V c 1 t) (iblk1 V c 3 t) p j).trans ?_
  exact downAt_congr (iblk1 V c 3 t) (V c main_v1) (iblk1 V c 0 t) (iblk1 V c 1 t) (iblk1 V c 2 t)
    (V c main_arg7) (V c main_arg8) (V c main_arg9) p j (row t j)
    (fun i => blk_y V c t p i) (fun i => blk_q V c t j i) (fun g => blk_s V c t j g) (fun g => blk_z V c t j g)

/-! ## The blocks cover the output -/

/-- An index of the output is in point `t`'s block iff each coordinate is in the block's range on its axis. -/
theorem mem_blk (t : Fin cfg1.N) (i : S64x4096.Idx) :
    i ∈ ((cfg1.win 4).blk t).view.set ↔ ∀ a : Fin 2, win1_4.index t a * S64x128.size a ≤ (i a).val ∧ (i a).val < win1_4.index t a * S64x128.size a + S64x128.size a := by
  show i ∈ ((View.whole main_v2).slice (win1_4.rect t)).set ↔ _
  rw [View.set_slice_whole, Rect.mem_set_unit]
  exact Iff.rfl

/-- Column `n` of the output lies in the block of point `n / 128`. -/
theorem cover (i : S64x4096.Idx) : ∃ t : Fin cfg1.N, (cfg1.win 4).flush t = true ∧ i ∈ ((cfg1.win 4).blk t).view.set := by
  have hN : cfg1.N = 32 := N_1
  have h0 : (i 0).val < 64 := (i 0).isLt
  have h1 : (i 1).val < 4096 := (i 1).isLt
  refine ⟨⟨(i 1).val / 128, by rw [hN]; omega⟩, flush1_4 _, ?_⟩
  rw [mem_blk]
  obtain ⟨-, -, -, -, -, -, -, -, e0, e1⟩ := idx_facts ⟨(i 1).val / 128, by rw [hN]; omega⟩
  intro a
  match a with
  | ⟨0, _⟩ =>
    show win1_4.index _ (0 : Fin 2) * 64 ≤ (i 0).val ∧ (i 0).val < win1_4.index _ (0 : Fin 2) * 64 + 64
    rw [e0]; omega
  | ⟨1, _⟩ =>
    show win1_4.index _ (1 : Fin 2) * 128 ≤ (i 1).val ∧ (i 1).val < win1_4.index _ (1 : Fin 2) * 128 + 128
    rw [e1]; show (i 1).val / 128 * 128 ≤ (i 1).val ∧ (i 1).val < (i 1).val / 128 * 128 + 128; omega

/-- THE OUTPUT ARRAY after the call: the down projection of the arrays the call was entered with. -/
theorem final (c : Dev nD) : (dat1 V c).arrAt 4 cfg1.N = G V c :=
  (dat1 V c).arrAt_eq_of_cover 4 (G V c) (fun t _ => flushed_eq V c t) (cover)

end Cert.KernelIdeal.DownArray

end
-- ==== Proof.KernelValue.lean ====
/-
  The idealized kernel's result, as the specification's function of the ten argument arrays.

  Followed through the three segments of the program:
  * the host conversion copies the activation into a new buffer (a change of float format is the identity on the
    extended reals) and leaves every argument as launched;
  * the first call finds those arrays, so it leaves `gate` of the arguments in its output and touches nothing else;
  * the second call finds that output and the three arguments of the down projection as launched, so its output — the
    program's result — is the down projection of `gate` of the arguments: the specification's `out`.
-/
import proofs.«121167_j43396349559335_2_alg».proof.Proof.KernelRun
import proofs.«121167_j43396349559335_2_alg».proof.Proof.GateArray
import proofs.«121167_j43396349559335_2_alg».proof.Proof.DownArray
import Idealize.ShloMosaic.Lib.StableHlo.Run

set_option maxRecDepth 16384

noncomputable section

namespace Cert.KernelIdeal.Whole

open Cert.KernelIdeal Cert.KernelIdeal.Gen Cert.QuantFfn
open Idealize.ShloMosaic Idealize.ShloMosaic.TcCoe Idealize.ShloMosaic.ValueIdx Idealize.SL.Sem Idealize.ShloMosaic.StableHlo
open Idealize.ShloMosaic.Pipeline (Dat)

/-- `gate` of equal arrays. -/
theorem gate_of_eq {x x' : (⟨2, ![64, 4096]⟩ : Shape).Idx → EReal}
    {q1 q1' q3 q3' : (⟨2, ![11008, 4096]⟩ : Shape).Idx → BitVec 32} {s1 s1' s3 s3' : (⟨2, ![11008, 32]⟩ : Shape).Idx → EReal}
    {z1 z1' z3 z3' : (⟨2, ![11008, 32]⟩ : Shape).Idx → BitVec 32}
    (hx : x = x') (hq1 : q1 = q1') (hs1 : s1 = s1') (hz1 : z1 = z1') (hq3 : q3 = q3') (hs3 : s3 = s3') (hz3 : z3 = z3') :
    gate x q1 s1 z1 q3 s3 z3 = gate x' q1' s1' z1' q3' s3' z3' := by
  subst hx hq1 hs1 hz1 hq3 hs3 hz3; rfl

/-- The down projection of equal arrays. -/
theorem down_of_eq {y y' : (⟨2, ![64, 11008]⟩ : Shape).Idx → EReal}
    {q q' : (⟨2, ![4096, 11008]⟩ : Shape).Idx → BitVec 32} {s s' : (⟨2, ![4096, 86]⟩ : Shape).Idx → EReal}
    {z z' : (⟨2, ![4096, 86]⟩ : Shape).Idx → BitVec 32} (hy : y = y') (hq : q = q') (hs : s = s') (hz : z = z') :
    (fun i : (⟨2, ![64, 4096]⟩ : Shape).Idx => downAt y q s z (i 0) (i 1)) = fun i => downAt y' q' s' z' (i 0) (i 1) := by
  subst hy hq hs hz; rfl

variable (m : (ℓ : Loc nD τ sig) → Buf (Elt Ideal) ℓ) (ρ : Dev nD → PrngReg)

/-! ## The first call's entry contents -/

/-- The converted activation is the activation. -/
theorem V1_x (c : Dev nD) :
    (V1 m ρ c main_v0 : S64x4096.Idx → EReal) = (m ((c : Thread nD τ).loc main_arg0) : S64x4096.Idx → EReal) := by
  dsimp only [V1, W1, hostOps0]
  after_results
  rfl

/-- An argument the first call reads through a window is, at the call's entry, as launched. -/
theorem V1_arg1 (c : Dev nD) : V1 m ρ c main_arg1 = m ((c : Thread nD τ).loc main_arg1) :=
  ((W2_arr m ρ c 1).trans (((dat0 (V1 m ρ) c).arrAt_in 1 rfl _).trans (A_eq0 (V1 m ρ) c 1))).symm.trans
    ((W3_of_ne m ρ c main_arg1 (by decide)).symm.trans (W3_main_arg1 m ρ c))
theorem V1_arg2 (c : Dev nD) : V1 m ρ c main_arg2 = m ((c : Thread nD τ).loc main_arg2) :=
  ((W2_arr m ρ c 2).trans (((dat0 (V1 m ρ) c).arrAt_in 2 rfl _).trans (A_eq0 (V1 m ρ) c 2))).symm.trans
    ((W3_of_ne m ρ c main_arg2 (by decide)).symm.trans (W3_main_arg2 m ρ c))
theorem V1_arg3 (c : Dev nD) : V1 m ρ c main_arg3 = m ((c : Thread nD τ).loc main_arg3) :=
  ((W2_arr m ρ c 3).trans (((dat0 (V1 m ρ) c).arrAt_in 3 rfl _).trans (A_eq0 (V1 m ρ) c 3))).symm.trans
    ((W3_of_ne m ρ c main_arg3 (by decide)).symm.trans (W3_main_arg3 m ρ c))
theorem V1_arg4 (c : Dev nD) : V1 m ρ c main_arg4 = m ((c : Thread nD τ).loc main_arg4) :=
  ((W2_arr m ρ c 4).trans (((dat0 (V1 m ρ) c).arrAt_in 4 rfl _).trans (A_eq0 (V1 m ρ) c 4))).symm.trans
    ((W3_of_ne m ρ c main_arg4 (by decide)).symm.trans (W3_main_arg4 m ρ c))
theorem V1_arg5 (c : Dev nD) : V1 m ρ c main_arg5 = m ((c : Thread nD τ).loc main_arg5) :=
  ((W2_arr m ρ c 5).trans (((dat0 (V1 m ρ) c).arrAt_in 5 rfl _).trans (A_eq0 (V1 m ρ) c 5))).symm.trans
    ((W3_of_ne m ρ c main_arg5 (by decide)).symm.trans (W3_main_arg5 m ρ c))
theorem V1_arg6 (c : Dev nD) : V1 m ρ c main_arg6 = m ((c : Thread nD τ).loc main_arg6) :=
  ((W2_arr m ρ c 6).trans (((dat0 (V1 m ρ) c).arrAt_in 6 rfl _).trans (A_eq0 (V1 m ρ) c 6))).symm.trans
    ((W3_of_ne m ρ c main_arg6 (by decide)).symm.trans (W3_main_arg6 m ρ c))

/-! ## The second call's entry contents -/

/-- The first call's output, as the second call finds it: `gate` of the arguments. -/
theorem V2_y (c : Dev nD) :
    (V2 m ρ c main_v1 : S64x11008.Idx → EReal)
      = gate (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) :=
  ((W2_arr m ρ c 7).trans (GateArray.final (V1 m ρ) c)).trans
    (gate_of_eq (V1_x m ρ c) (V1_arg1 m ρ c) (V1_arg2 m ρ c) (V1_arg3 m ρ c) (V1_arg4 m ρ c) (V1_arg5 m ρ c) (V1_arg6 m ρ c))

/-- An argument the second call reads through a window is, at the call's entry, as launched. -/
theorem V2_arg7 (c : Dev nD) : V2 m ρ c main_arg7 = m ((c : Thread nD τ).loc main_arg7) :=
  ((W3_arr m ρ c 0).trans (((dat1 (V2 m ρ) c).arrAt_in 0 rfl _).trans (A_eq1 (V2 m ρ) c 0))).symm.trans (W3_main_arg7 m ρ c)
theorem V2_arg8 (c : Dev nD) : V2 m ρ c main_arg8 = m ((c : Thread nD τ).loc main_arg8) :=
  ((W3_arr m ρ c 1).trans (((dat1 (V2 m ρ) c).arrAt_in 1 rfl _).trans (A_eq1 (V2 m ρ) c 1))).symm.trans (W3_main_arg8 m ρ c)
theorem V2_arg9 (c : Dev nD) : V2 m ρ c main_arg9 = m ((c : Thread nD τ).loc main_arg9) :=
  ((W3_arr m ρ c 2).trans (((dat1 (V2 m ρ) c).arrAt_in 2 rfl _).trans (A_eq1 (V2 m ρ) c 2))).symm.trans (W3_main_arg9 m ρ c)

/-! ## The result -/

/-- The specification's block of the launch memory's ten arguments. -/
abbrev spec (c : Dev nD) : S64x4096.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- What the second call's write-backs leave in the result array is the specification's block. -/
theorem result_value (c : Dev nD) : (dat1 (V2 m ρ) c).arrAt 4 cfg1.N = spec m c :=
  (DownArray.final (V2 m ρ) c).trans
    (down_of_eq (V2_y m ρ c) (V2_arg7 m ρ c) (V2_arg8 m ρ c) (V2_arg9 m ρ c))

/-- THE RUN, READ: every weakly fair execution terminates, nothing faulting, with the result array at the
    specification's block of the arguments and the arguments unchanged. -/
theorem run : θ_run defs (onTc (τ := τ) (main (F := Ideal))) ⟨m, fun _ => 0, ρ⟩ (fun r => ∀ c : Dev nD,
      r.2.mem ((c.tc : Thread nD τ).loc main_v2) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(result_eq m ρ r h c).trans (result_value m ρ c), args_eq m ρ r h c⟩) (run_all m ρ)

end Cert.KernelIdeal.Whole

end
-- ==== Proof.RefIsSpec.lean ====
/-
  The reference program computes the specification's feed-forward block.

  The reference dequantizes each weight matrix by viewing its codes as rows × groups × 128, subtracting the group's
  zero point and multiplying by the group's scale, and viewing the result as rows × columns again.  Entry (i, k) of
  the flattened result sits at flat position i · C + k, whose three coordinates in the grouped view are
  (i, k / 128, k % 128); reading back through the first view returns to (i, k).  So the dequantized entry is
  (q[i, k] - z[i, k / 128]) · s[i, k / 128], which is the specification's entry formula.  The two projections are
  the sums over the shared axis against the transposed weights, the gate spells 1 / (1 + e^(-u)) with the constant
  one, and the last contraction is the down projection.
-/
import proofs.«121167_j43396349559335_2_alg».proof.Proof.Gen.ReferenceIdeal.Read
import proofs.«121167_j43396349559335_2_alg».proof.Proof.Spec
import Idealize.ShloMosaic.PureOps.Ideal
import Idealize.ShloMosaic.Lib.ValueIdx

noncomputable section

namespace Cert.ReferenceIdeal.RefValue

open Cert.ReferenceIdeal Cert.ReferenceIdeal.Read Cert.QuantFfn
open Idealize.ShloMosaic Idealize.ShloMosaic.ValueIdx
open scoped BigOperators

/-! ## The index arithmetic of the two views -/

/-- Flattening (i, k) of 11008 × 4096 and regrouping, then flattening back, returns to (i, k). -/
theorem codeIdxH (i : Fin 11008) (k : Fin 4096) : idx_main_v0 (idx_main_v9 (ix2 i k)) = ix2 i k := by
  have hi := i.isLt
  have hk := k.isLt
  funext a
  match a with
  | ⟨0, _⟩ =>
    exact Fin.ext (by
      show (((i.val * 4096 + k.val) / 4096 * 32 + (i.val * 4096 + k.val) / 128 % 32) * 128
        + (i.val * 4096 + k.val) % 128) / 4096 = i.val
      omega)
  | ⟨1, _⟩ =>
    exact Fin.ext (by
      show (((i.val * 4096 + k.val) / 4096 * 32 + (i.val * 4096 + k.val) / 128 % 32) * 128
        + (i.val * 4096 + k.val) % 128) % 4096 = k.val
      omega)

/-- The group coordinates of (i, k) of 11008 × 4096 are (i, k / 128). -/
theorem groupIdxH (i : Fin 11008) (k : Fin 4096) : idx_main_v2 (idx_main_v4 (idx_main_v9 (ix2 i k))) = ix2 i (grpH k) := by
  have hi := i.isLt
  have hk := k.isLt
  funext a
  match a with
  | ⟨0, _⟩ =>
    exact Fin.ext (by
      show (i.val * 4096 + k.val) / 4096 = i.val
      omega)
  | ⟨1, _⟩ =>
    exact Fin.ext (by
      show (i.val * 4096 + k.val) / 128 % 32 = k.val / 128
      omega)

/-- Flattening (h, i) of 4096 × 11008 and regrouping, then flattening back, returns to (h, i). -/
theorem codeIdxI (h : Fin 4096) (i : Fin 11008) : idx_main_v20 (idx_main_v29 (ix2 h i)) = ix2 h i := by
  have hh := h.isLt
  have hi := i.isLt
  funext a
  match a with
  | ⟨0, _⟩ =>
    exact Fin.ext (by
      show (((h.val * 11008 + i.val) / 11008 * 86 + (h.val * 11008 + i.val) / 128 % 86) * 128
        + (h.val * 11008 + i.val) % 128) / 11008 = h.val
      omega)
  | ⟨1, _⟩ =>
    exact Fin.ext (by
      show (((h.val * 11008 + i.val) / 11008 * 86 + (h.val * 11008 + i.val) / 128 % 86) * 128
        + (h.val * 11008 + i.val) % 128) % 11008 = i.val
      omega)

/-- The group coordinates of (h, i) of 4096 × 11008 are (h, i / 128). -/
theorem groupIdxI (h : Fin 4096) (i : Fin 11008) : idx_main_v22 (idx_main_v24 (idx_main_v29 (ix2 h i))) = ix2 h (grpI i) := by
  have hh := h.isLt
  have hi := i.isLt
  funext a
  match a with
  | ⟨0, _⟩ =>
    exact Fin.ext (by
      show (h.val * 11008 + i.val) / 11008 = h.val
      omega)
  | ⟨1, _⟩ =>
    exact Fin.ext (by
      show (h.val * 11008 + i.val) / 128 % 86 = i.val / 128
      omega)

/-! ## The three dequantized weight matrices -/

/-- The first dequantized matrix at (i, k). -/
theorem w1_at (x1 : (⟨S11008x4096, .i32⟩ : BufTy).Contents (Elt Ideal)) (x2 : (⟨S11008x32, .f32⟩ : BufTy).Contents (Elt Ideal))
    (x3 : (⟨S11008x32, .i32⟩ : BufTy).Contents (Elt Ideal)) (i : Fin 11008) (k : Fin 4096) :
    val_main_v9 (F := Ideal) x1 x2 x3 (ix2 i k) = wq grpH x1 x2 x3 i k := by
  rw [val_main_v9_apply, val_main_v8_apply, val_main_v5_apply, val_main_v1_apply, val_main_v0_apply,
    val_main_v4_apply, val_main_v3_apply, val_main_v2_apply, val_main_v7_apply, val_main_v6_apply]
  have e1 : idx_main_v0 (idx_main_v9 (ix2 i k)) = ix2 i k := codeIdxH i k
  have e2 : idx_main_v2 (idx_main_v4 (idx_main_v9 (ix2 i k))) = ix2 i (grpH k) := groupIdxH i k
  have e3 : idx_main_v6 (idx_main_v7 (idx_main_v9 (ix2 i k))) = ix2 i (grpH k) := groupIdxH i k
  rw [e1, e2, e3]
  rfl

/-- The third dequantized matrix (the up projection's) at (i, k). -/
theorem w3_at (x4 : (⟨S11008x4096, .i32⟩ : BufTy).Contents (Elt Ideal)) (x5 : (⟨S11008x32, .f32⟩ : BufTy).Contents (Elt Ideal))
    (x6 : (⟨S11008x32, .i32⟩ : BufTy).Contents (Elt Ideal)) (i : Fin 11008) (k : Fin 4096) :
    val_main_v19 (F := Ideal) x4 x5 x6 (ix2 i k) = wq grpH x4 x5 x6 i k := by
  rw [val_main_v19_apply, val_main_v18_apply, val_main_v15_apply, val_main_v11_apply, val_main_v10_apply,
    val_main_v14_apply, val_main_v13_apply, val_main_v12_apply, val_main_v17_apply, val_main_v16_apply]
  have e1 : idx_main_v10 (idx_main_v19 (ix2 i k)) = ix2 i k := codeIdxH i k
  have e2 : idx_main_v12 (idx_main_v14 (idx_main_v19 (ix2 i k))) = ix2 i (grpH k) := groupIdxH i k
  have e3 : idx_main_v16 (idx_main_v17 (idx_main_v19 (ix2 i k))) = ix2 i (grpH k) := groupIdxH i k
  rw [e1, e2, e3]
  rfl

/-- The second dequantized matrix (the down projection's) at (h, i). -/
theorem w2_at (x7 : (⟨S4096x11008, .i32⟩ : BufTy).Contents (Elt Ideal)) (x8 : (⟨S4096x86, .f32⟩ : BufTy).Contents (Elt Ideal))
    (x9 : (⟨S4096x86, .i32⟩ : BufTy).Contents (Elt Ideal)) (h : Fin 4096) (i : Fin 11008) :
    val_main_v29 (F := Ideal) x7 x8 x9 (ix2 h i) = wq grpI x7 x8 x9 h i := by
  rw [val_main_v29_apply, val_main_v28_apply, val_main_v25_apply, val_main_v21_apply, val_main_v20_apply,
    val_main_v24_apply, val_main_v23_apply, val_main_v22_apply, val_main_v27_apply, val_main_v26_apply]
  have e1 : idx_main_v20 (idx_main_v29 (ix2 h i)) = ix2 h i := codeIdxI h i
  have e2 : idx_main_v22 (idx_main_v24 (idx_main_v29 (ix2 h i))) = ix2 h (grpI i) := groupIdxI h i
  have e3 : idx_main_v26 (idx_main_v27 (idx_main_v29 (ix2 h i))) = ix2 h (grpI i) := groupIdxI h i
  rw [e1, e2, e3]
  rfl

/-! ## The two projections -/

/-- The gate projection x · w1ᵀ at (t, i). -/
theorem x1_at (x0 : (⟨S64x4096, .f32⟩ : BufTy).Contents (Elt Ideal)) (x1 : (⟨S11008x4096, .i32⟩ : BufTy).Contents (Elt Ideal))
    (x2 : (⟨S11008x32, .f32⟩ : BufTy).Contents (Elt Ideal)) (x3 : (⟨S11008x32, .i32⟩ : BufTy).Contents (Elt Ideal))
    (t : Fin 64) (i : Fin 11008) :
    val_main_v31 (F := Ideal) x0 x1 x2 x3 (ix2 t i) = proj x0 x1 x2 x3 t i := by
  rw [val_main_v31_apply]
  unfold proj
  refine Finset.sum_congr rfl fun k _ => ?_
  rw [val_main_v30_apply]
  have el : lidx_main_v31 (ix2 t i) k = ix2 t k := by
    funext a
    match a with
    | ⟨0, _⟩ => rfl
    | ⟨1, _⟩ => rfl
  have er : idx_main_v30 (ridx_main_v31 (ix2 t i) k) = ix2 i k := by
    funext a
    match a with
    | ⟨0, _⟩ => rfl
    | ⟨1, _⟩ => rfl
  rw [el, er, w1_at]

/-- The up projection x · w3ᵀ at (t, i). -/
theorem x3_at (x0 : (⟨S64x4096, .f32⟩ : BufTy).Contents (Elt Ideal)) (x4 : (⟨S11008x4096, .i32⟩ : BufTy).Contents (Elt Ideal))
    (x5 : (⟨S11008x32, .f32⟩ : BufTy).Contents (Elt Ideal)) (x6 : (⟨S11008x32, .i32⟩ : BufTy).Contents (Elt Ideal))
    (t : Fin 64) (i : Fin 11008) :
    val_main_v33 (F := Ideal) x0 x4 x5 x6 (ix2 t i) = proj x0 x4 x5 x6 t i := by
  rw [val_main_v33_apply]
  unfold proj
  refine Finset.sum_congr rfl fun k _ => ?_
  rw [val_main_v32_apply]
  have el : lidx_main_v33 (ix2 t i) k = ix2 t k := by
    funext a
    match a with
    | ⟨0, _⟩ => rfl
    | ⟨1, _⟩ => rfl
  have er : idx_main_v32 (ridx_main_v33 (ix2 t i) k) = ix2 i k := by
    funext a
    match a with
    | ⟨0, _⟩ => rfl
    | ⟨1, _⟩ => rfl
  rw [el, er, w3_at]

/-! ## The gate -/

/-- The single-precision pattern of one denotes one. -/
theorem one_bits : Ideal.ofBits .f32 0x3F800000#32 = (1 : EReal) := by
  simp [Ideal.ofBits, Ideal.ieee, -EReal.coe_mul]; norm_num

/-- u · (1 / (1 + e^(-u))) is u · σ(u), at every index. -/
theorem silu_at (x0 : (⟨S64x4096, .f32⟩ : BufTy).Contents (Elt Ideal)) (x1 : (⟨S11008x4096, .i32⟩ : BufTy).Contents (Elt Ideal))
    (x2 : (⟨S11008x32, .f32⟩ : BufTy).Contents (Elt Ideal)) (x3 : (⟨S11008x32, .i32⟩ : BufTy).Contents (Elt Ideal))
    (j : S64x11008.Idx) :
    val_main_v34 (F := Ideal) x0 x1 x2 x3 j
      = val_main_v31 (F := Ideal) x0 x1 x2 x3 j * Ideal.logistic (val_main_v31 (F := Ideal) x0 x1 x2 x3 j) := by
  rw [val_main_v34_apply, val_main_call0_v5_apply, val_main_call0_v4_apply, val_main_call0_cst_0_apply,
    val_main_call0_v3_apply, val_main_call0_v2_apply, val_main_call0_cst_apply, val_main_call0_v1_apply,
    val_main_call0_v0_apply, Ideal.ofBits_def, one_bits]
  rfl

/-- The gated activation at (t, i). -/
theorem gate_at (x0 : (⟨S64x4096, .f32⟩ : BufTy).Contents (Elt Ideal)) (x1 : (⟨S11008x4096, .i32⟩ : BufTy).Contents (Elt Ideal))
    (x2 : (⟨S11008x32, .f32⟩ : BufTy).Contents (Elt Ideal)) (x3 : (⟨S11008x32, .i32⟩ : BufTy).Contents (Elt Ideal))
    (x4 : (⟨S11008x4096, .i32⟩ : BufTy).Contents (Elt Ideal)) (x5 : (⟨S11008x32, .f32⟩ : BufTy).Contents (Elt Ideal))
    (x6 : (⟨S11008x32, .i32⟩ : BufTy).Contents (Elt Ideal)) (t : Fin 64) (i : Fin 11008) :
    val_main_v35 (F := Ideal) x0 x1 x2 x3 x4 x5 x6 (ix2 t i) = gateAt x0 x1 x2 x3 x4 x5 x6 t i := by
  rw [val_main_v35_apply, silu_at, x1_at, x3_at]
  rfl

/-! ## The block -/

/-- The reference's result is the specification's block. -/
theorem ref_eq_out (x0 : (⟨S64x4096, .f32⟩ : BufTy).Contents (Elt Ideal)) (x1 : (⟨S11008x4096, .i32⟩ : BufTy).Contents (Elt Ideal))
    (x2 : (⟨S11008x32, .f32⟩ : BufTy).Contents (Elt Ideal)) (x3 : (⟨S11008x32, .i32⟩ : BufTy).Contents (Elt Ideal))
    (x4 : (⟨S11008x4096, .i32⟩ : BufTy).Contents (Elt Ideal)) (x5 : (⟨S11008x32, .f32⟩ : BufTy).Contents (Elt Ideal))
    (x6 : (⟨S11008x32, .i32⟩ : BufTy).Contents (Elt Ideal)) (x7 : (⟨S4096x11008, .i32⟩ : BufTy).Contents (Elt Ideal))
    (x8 : (⟨S4096x86, .f32⟩ : BufTy).Contents (Elt Ideal)) (x9 : (⟨S4096x86, .i32⟩ : BufTy).Contents (Elt Ideal)) :
    Cert.ReferenceIdeal.Read.val_main_v37 (F := Ideal) x0 x1 x2 x3 x4 x5 x6 x7 x8 x9
      = Cert.QuantFfn.out x0 x1 x2 x3 x4 x5 x6 x7 x8 x9 := by
  funext j
  obtain ⟨t, h, rfl⟩ : ∃ (t : Fin 64) (h : Fin 4096), j = ix2 t h := ⟨j 0, j 1, eq_ix2 j⟩
  rw [val_main_v37_apply]
  show _ = downAt (gate x0 x1 x2 x3 x4 x5 x6) x7 x8 x9 t h
  unfold downAt
  refine Finset.sum_congr rfl fun k _ => ?_
  rw [val_main_v36_apply]
  have el : lidx_main_v37 (ix2 t h) k = ix2 t k := by
    funext a
    match a with
    | ⟨0, _⟩ => rfl
    | ⟨1, _⟩ => rfl
  have er : idx_main_v36 (ridx_main_v37 (ix2 t h) k) = ix2 h k := by
    funext a
    match a with
    | ⟨0, _⟩ => rfl
    | ⟨1, _⟩ => rfl
  rw [el, er, gate_at, w2_at]
  rfl

end Cert.ReferenceIdeal.RefValue

end
-- ==== Proof.lean ====
/-
  A feed-forward block with group-quantized weights: the kernel against its reference, over the extended reals.

  Both programs dequantize three weight matrices — entry `(i, k)` is `(q[i, k] - z[i, k / 128]) · s[i, k / 128]` —,
  project a `64 × 4096` activation through the first and the third, gate (`(x1 · σ(x1)) · x3`), and project the gated
  activation down through the second.  The reference does this on whole arrays.  The kernel does it in two pipelined
  calls, the first over 43 blocks of 256 rows of the gate and up weights, the second over 32 blocks of 128 rows of the
  down weight, each contraction done whole inside a grid point; it rounds operands to a shorter float format on the
  way, which over the extended reals is the identity.  Both therefore compute the one function `Cert.QuantFfn.out`
  of the ten arguments: the same sums of the same products, in the same order of factors, so no law of arithmetic
  beyond reading each layout operation at an index is needed, and the precondition is not used.

  The three frames: each program's run with everything but the arguments forgotten.  The idealization rewrote nothing.
-/
import proofs.«121167_j43396349559335_2_alg».proof.Defs
import proofs.«121167_j43396349559335_2_alg».proof.Proof.Gen.Kernel
import proofs.«121167_j43396349559335_2_alg».proof.Proof.Gen.Kernel.Skeleton
import proofs.«121167_j43396349559335_2_alg».proof.Proof.Gen.Kernel.Launch
import proofs.«121167_j43396349559335_2_alg».proof.Proof.Gen.Kernel.Points
import proofs.«121167_j43396349559335_2_alg».proof.Proof.Gen.Kernel.Frame
import proofs.«121167_j43396349559335_2_alg».proof.Proof.Gen.KernelIdeal
import proofs.«121167_j43396349559335_2_alg».proof.Proof.Gen.KernelIdeal.Skeleton
import proofs.«121167_j43396349559335_2_alg».proof.Proof.Gen.KernelIdeal.Launch
import proofs.«121167_j43396349559335_2_alg».proof.Proof.Gen.KernelIdeal.Points
import proofs.«121167_j43396349559335_2_alg».proof.Proof.Gen.KernelIdeal.Frame
import proofs.«121167_j43396349559335_2_alg».proof.Proof.Gen.ReferenceIdeal
import proofs.«121167_j43396349559335_2_alg».proof.Proof.Gen.ReferenceIdeal.Run
import proofs.«121167_j43396349559335_2_alg».proof.Proof.Gen.ReferenceIdeal.Read
import proofs.«121167_j43396349559335_2_alg».proof.Proof.Gen.Pre_finite_inputs
import proofs.«121167_j43396349559335_2_alg».proof.Proof.KernelValue
import proofs.«121167_j43396349559335_2_alg».proof.Proof.RefIsSpec
import Idealize.ShloMosaic.Adequacy
import Idealize.ShloMosaic.Init

noncomputable section

namespace Cert.Proof

open Idealize.ShloMosaic Idealize.SL.Sem

/-- The word-level kernel runs and leaves its arguments as launched. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- So does the idealized reference: its run with the result forgotten. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both programs end with the specification's block of those arguments in
    their result arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v37_eq, Cert.ReferenceIdeal.RefValue.ref_eq_out, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
